-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x256 : Shape := ⟨3, ![4096, 2, 256]⟩
abbrev S4096x1 : Shape := ⟨2, ![4096, 1]⟩
abbrev S_ : Shape := ⟨0, ![]⟩

class Facts : Prop where
  bcast_S_S4096x2x256 : S_.BroadcastsInDim S4096x2x256 (![] : Fin 0 → Fin S4096x2x256.rank)
  reducesTo_S4096x2x256_S_d0_1_2 : S4096x2x256.ReducesTo [0, 1, 2] S_
  h_S_ : 0 < S_.numel

variable [Facts]

def fn {F : FTy → Type} [FloatOps F] (main_arg0 : FVec F S4096x2x256 .f32) (main_arg1 : IVec S4096x1 32) : IVec S_ 1 :=
  let main_v0 : FVec F S4096x2x256 .f32 := Host.absf main_arg0
  let main_cst : FVec F S_ .f32 := constant S_ .f32 0x7F800000#32
  let main_v1 : FVec F S4096x2x256 .f32 := broadcastInDim S4096x2x256 ![] bcast_S_S4096x2x256 main_cst
  let main_v2 : IVec S4096x2x256 1 := cmpf .olt main_v0 main_v1
  let main_c : IVec S_ 1 := constantI S_ 1 1#1
  let main_v3 : IVec S_ 1 := (fun x v => Host.reduce IntOp.andi x v reducesTo_S4096x2x256_S_d0_1_2 h_S_) main_v2 main_c
  main_v3
-- ==== Kernel.lean ====
abbrev S4096x2x256 : Shape := ⟨3, ![4096, 2, 256]⟩
abbrev S4096x1 : Shape := ⟨2, ![4096, 1]⟩
abbrev S2x4096x256 : Shape := ⟨3, ![2, 4096, 256]⟩
abbrev S8192x256 : Shape := ⟨2, ![8192, 256]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S128x256 : Shape := ⟨2, ![128, 256]⟩
abbrev S128x1 : Shape := ⟨2, ![128, 1]⟩
abbrev S256x8192 : Shape := ⟨2, ![256, 8192]⟩
abbrev S128x8192 : Shape := ⟨2, ![128, 8192]⟩
abbrev S128 : Shape := ⟨1, ![128]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4096x2x256, .f32⟩
  | .hbm, ⟨1, _⟩ => ⟨S4096x1, .i32⟩
  | .hbm, ⟨2, _⟩ => ⟨S2x4096x256, .f32⟩
  | .hbm, ⟨3, _⟩ => ⟨S8192x256, .f32⟩
  | .hbm, ⟨4, _⟩ => ⟨S8192x256, .bf16⟩
  | .hbm, ⟨5, _⟩ => ⟨S4096, .i32⟩
  | .hbm, ⟨6, _⟩ => ⟨S1x4096, .i32⟩
  | .hbm, ⟨7, _⟩ => ⟨S2x4096, .i32⟩
  | .hbm, ⟨8, _⟩ => ⟨S8192, .i32⟩
  | .hbm, ⟨9, _⟩ => ⟨S8192x1, .i32⟩
  | .hbm, ⟨10, _⟩ => ⟨S1x8192, .i32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | _, _ => ⟨S4096x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x2x256_S2x4096x256_1_0_2 : S4096x2x256.Transposes [1, 0, 2] S2x4096x256
  shapeCasts_S2x4096x256_S8192x256 : S2x4096x256.ShapeCasts S8192x256
  bitsLt_bf16_f32 : FTy.bits .bf16 < FTy.bits .f32
  shapeCasts_S4096x1_S4096 : S4096x1.ShapeCasts S4096
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  transposes_S8192x256_p1_0_S256x8192 : S8192x256.Transposes [1, 0] S256x8192
  iota_S128x8192_d0_w32 : S128x8192.Iotas .tc 32 [0]
  iota_S128x8192_d1_w32 : S128x8192.Iotas .tc 32 [1]
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reducesTo_S8192x1_S_d0_1 : S8192x1.ReducesTo [0, 1] S_
  h_S_ : 0 < S_.numel
  dot_S128x256_S256x8192_S128x8192_1_0_0_1_n_n_wf : DotDims.WF S128x256 S256x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .bf16 = 32 ∨ (Rect.block (s := S8192x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)

variable [Facts₀]

def dot_S128x256_S256x8192_S128x8192_1_0_0_1_n_n : DotDims S128x256 S256x8192 S128x8192 where
  lhsContracting := [1]
  rhsContracting := [0]
  lhsNonContracting := [0]
  rhsNonContracting := [1]
  lhsBatch := []
  rhsBatch := []
  wf := dot_S128x256_S256x8192_S128x8192_1_0_0_1_n_n_wf

abbrev win0_0 : Pipeline.Window sig grid0 :=
  Pipeline.Window.ofSpec (Memref.whole main_v2) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2x256 : Shape := ⟨3, ![4096, 2, 256]⟩
abbrev S4096x1 : Shape := ⟨2, ![4096, 1]⟩
abbrev S1x4096 : Shape := ⟨2, ![1, 4096]⟩
abbrev S4096x4096 : Shape := ⟨2, ![4096, 4096]⟩
abbrev S2x4096x256 : Shape := ⟨3, ![2, 4096, 256]⟩
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x4096x1x4096 : Shape := ⟨4, ![1, 4096, 1, 4096]⟩
abbrev S2x4096x2x4096 : Shape := ⟨4, ![2, 4096, 2, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x2x256, .f32⟩
  | .hbm, ⟨1, _⟩ => ⟨S4096x1, .i32⟩
  | .hbm, ⟨2, _⟩ => ⟨S1x4096, .i32⟩
  | .hbm, ⟨3, _⟩ => ⟨S4096x4096, .i32⟩
  | .hbm, ⟨4, _⟩ => ⟨S4096x4096, .i32⟩
  | .hbm, ⟨5, _⟩ => ⟨S4096x4096, .i1⟩
  | .hbm, ⟨6, _⟩ => ⟨S4096x4096, .f32⟩
  | .hbm, ⟨7, _⟩ => ⟨S2x4096x256, .f32⟩
  | .hbm, ⟨8, _⟩ => ⟨S8192x256, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x4096x1x4096, .f32⟩
  | .hbm, ⟨19, _⟩ => ⟨S2x4096x2x4096, .f32⟩
  | .hbm, ⟨20, _⟩ => ⟨S8192x8192, .f32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2x256_S2x4096x256_1_0_2 : S4096x2x256.Transposes [1, 0, 2] S2x4096x256
  shapeCasts_S2x4096x256_S8192x256 : S2x4096x256.ShapeCasts S8192x256
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192 : S_.BroadcastsInDim S8192 (![] : Fin 0 → Fin S8192.rank)
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.BodyBits.lean ====
/-
  The body of the one kernel region of `Kernel`, at every grid point.

  The region's grid has 64 points; at point `t` the kernel is handed five staged blocks: rows `128 t … 128 t + 127` of
  the re-laid feature matrix (window 0), the WHOLE feature matrix again (window 1: the same array, staged once and kept),
  the labels of those 128 rows as a column (window 2), all 8192 labels as a row (window 3), and the 128 output rows
  (window 4). The body loads the four inputs whole, computes one value for each of its 128 rows, and stores the 128
  values over the whole output block; it leaves the inputs as it found them. So after the body an input's buffer holds
  its block, and the output's holds the body's value of the four input blocks at that point (`rowLosses`).
-/
import proofs.«176974_j89670327206311_1_alg».proof.Proof.Gen.Kernel.Launch
import proofs.«176974_j89670327206311_1_alg».proof.Proof.Gen.Kernel.Skeleton
import proofs.«176974_j89670327206311_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => (s₀ m ρ).mem ((c : Dev nD), b)
/-- and when the region is entered: the nine host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the output block -/

abbrev r0 : Rect S128x256 := Rect.unit (s := S128x256) ![0, 0] S128x256.size inb_S128x256_S128x256_0_0
abbrev r1 : Rect S8192x256 := Rect.unit (s := S8192x256) ![0, 0] S8192x256.size inb_S8192x256_S8192x256_0_0
abbrev r2 : Rect S128x1 := Rect.unit (s := S128x1) ![0, 0] S128x1.size inb_S128x1_S128x1_0_0
abbrev r3 : Rect S1x8192 := Rect.unit (s := S1x8192) ![0, 0] S1x8192.size inb_S1x8192_S1x8192_0_0

/-- The 128 row losses of the point with coordinates `i`, from the four input blocks: the body's one store, over the
    whole output block. -/
def rowLosses (i : grid0.Coords) (x0 : Vec F S128x256 .bf16) (x1 : Vec F S8192x256 .bf16) (x2 : Vec F S128x1 .i32) (x3 : Vec F S1x8192 .i32) :
    Vec F S128x1 .f32 :=
  View.canon [⟨r2, k0_pay1 (k0_pay2 i (View.ld x0 r0) (View.ld x1 r1) (View.ld x2 r2) (View.ld x3 r3)) (Scalar.ofBits .f32 0xBFB6DB6E#32)⟩]

/-- The one store covers the output block. -/
theorem cover_out (p0 : Vec F S128x1 .f32) (y : S128x1.Idx) :
    ∃ pc ∈ ([⟨r2, p0⟩] : List (View.Piece (Elt F) S128x1 .f32)), y ∈ pc.1.set :=
  View.cover_of_tiled [⟨r2, p0⟩] S128x1.size (by rfl) y

/-! ## The body's triple -/

set_option maxHeartbeats 1000000 in
/-- The body on whole staging buffers — the inputs' at contents `x0 … x3`, the output's at anything — runs to the
    inputs' as they were and the output's at the row losses of the inputs. -/
theorem sound_kernel (c : Dev nD) (E : Set ℕ) (i : grid0.Coords)
    (arg1 : Memref sig .tc .vmem S128x256 .bf16) (harg1 : arg1.IsWhole) (arg2 : Memref sig .tc .vmem S8192x256 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x256 .bf16) (x1 : Vec F S8192x256 .bf16) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowLosses i x0 x1 x2 x3)) -∗ K ⟨⟩))
      ⊢ wp frame (wpE (defs₀ (F := F)) Variants.none c none) E (cc0__supcon_kernel i arg1 harg1 arg2 harg2 arg3 harg3 arg4 harg4 arg5 harg5) K := by
  simp only [cc0__supcon_kernel_eq_skeleton]; unfold cc0__supcon_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.DataBits.lean ====
/-
  The proof data of the one kernel region of `Kernel`, and the body obligation at every grid point.

  The arrays are what the region finds. After the body at point `t` an input's staging buffer holds its block —
  whether the block was fetched at `t` or kept from the point before: windows 1 and 3 (the whole feature matrix, all the
  labels) are fetched at the first point only and their block index never moves — and the output's holds the 128 row
  losses of the point. The feature matrix is ONE array behind windows 0 and 1, both inputs: the core holds it at two
  complementary shares, one per window. Nothing is owed; the invariant is the scoped buffers no window stages (none).
-/
import proofs.«176974_j89670327206311_1_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window's reads go through: the feature matrix halved between windows 0 and 1. -/
def winShare : Fin cfg0.W → PosShare TreeShare := fun w => match w with
  | ⟨0, _⟩ => fullShare.left
  | ⟨1, _⟩ => fullShare.right
  | _ => fullShare

/-- The proof data of the pipeline on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => rowLosses (grid0.coords t) (iblk m ρ c 0 t) (iblk m ρ c 1 t) (iblk m ρ c 2 t) (iblk m ρ c 3 t)
  Φ _ := Pipeline.scopedRest (Ix := Unit) (Name := ℕ) (U := UR sig nD τ) (Lvl := ℕ) (Val := Elt F) spec0 c
  q := winShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t
    = rowLosses (grid0.coords t) (iblk m ρ c 0 t) (iblk m ρ c 1 t) (iblk m ρ c 2 t) (iblk m ρ c 3 t) := by dsimp only [dats]

/-- Each input's current staging buffer holds its block at every point, fetched there or not. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

/-- The body at any point: the inputs' buffers hold their blocks, so the body's triple applies; the invariant and what
    the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Body

end
-- ==== Proof.RunBits.lean ====
/-
  The run of `Kernel`'s @main: nine host operations, the kernel region, four host operations.

  The host operations before the region re-lay the features as an 8192 × 256 matrix and the labels as a column and as a
  row; the region computes the 8192 row losses, 128 per grid point; the host operations after it sum them and divide by
  8192. The launch is the library's for @main as a LIST OF SEGMENTS: a host segment, the region, a host segment.
  Between segments the core holds all its unscoped buffers whole, at a valuation: as launched; then after the first
  nine operations; then, when the region is left, the same with the output array at its final contents; then after the
  last four operations. Inside the region the re-laid feature matrix, ONE array read through two windows, is held
  at two complementary shares, one per window: it is split when the region is entered and joined again when it is left
  (both windows are inputs, so the array ends as it was found).
-/
import proofs.«176974_j89670327206311_1_alg».proof.Proof.DataBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays and the buffers behind them -/

/-- Four buffers stand behind the five windows. -/
theorem arrRefs_eq : Finset.univ.image (Pipeline.arrRef spec0) = ([main_v2, main_v7, main_v8, main_v9] : List (Ref sig .tc)).toFinset := by
  decide

/-- The buffers behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v7) ↦{fullShare} W main_v7)
          ∗ (((c : Thread nD τ).loc main_v8) ↦{fullShare} W main_v8) ∗ (((c : Thread nD τ).loc main_v9) ↦{fullShare} W main_v9)) := by
  unfold Pipeline.arrBufs
  exact bigSep_eq_bigSepL_of_eq _ arrRefs_eq (by decide) _

/-- A core's unscoped buffers are the buffers behind the windows and the rest. -/
theorem unscopedBufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs spec0 c W ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The pipeline's arrays at contents `G`, window by window, each at its window's share. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_v2) ↦{fullShare.left} G 0) ∗ (((c : Thread nD τ).loc main_v2) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The valuations between the segments -/

/-- The buffers when the region is entered: the nine operations have run. -/
abbrev W₀ (c : Dev nD) : Valuation τ sig (Elt F) := StableHlo.after hostOps0 (V₀ m ρ c)

/-- The buffers when the region is left: the output array at its final contents, every other one as the region found it. -/
def W₁ (c : Dev nD) : Valuation τ sig (Elt F) :=
  Function.update (W₀ m ρ c) (Proc.devRef .tc main_v9) ((dats m ρ 0 c).arrAt 4 cfg0.N)

theorem W₁_out (c : Dev nD) : W₁ m ρ c (Proc.devRef .tc main_v9) = (dats m ρ 0 c).arrAt 4 cfg0.N := by
  unfold W₁; exact Function.update_self _ _ _

theorem W₁_of_ne (c : Dev nD) {b : Ref sig .tc} (h : b ≠ main_v9) : W₁ m ρ c (Proc.devRef .tc b) = W₀ m ρ c (Proc.devRef .tc b) := by
  unfold W₁; exact Function.update_of_ne (StableHlo.devRef_ne_of_ne h) _ _

/-- The unscoped buffers no window stages are untouched by the region. -/
theorem unscopedRest_W₁ (c : Dev nD) :
    (Pipeline.unscopedRest (Ix := Unit) (Name := ℕ) (U := UR sig nD τ) (Lvl := ℕ) spec0 c (fun b => W₁ m ρ c (Proc.devRef .tc b)) : sProp 𝕄)
      = Pipeline.unscopedRest spec0 c (V m ρ c) := by
  unfold Pipeline.unscopedRest
  refine bigSep_congr fun b hb => ?_
  have h9 : main_v9 ∈ Finset.univ.image (Pipeline.arrRef spec0) := by rw [arrRefs_eq]; decide
  have hb9 : b ≠ main_v9 := fun e => (Finset.mem_sdiff.mp hb).2 (by rw [e]; exact h9)
  exact congrArg (fun f => (((c : Thread nD τ).loc b) ↦{fullShare} f : sProp 𝕄)) (W₁_of_ne m ρ c hb9)

/-! ## The segments -/

abbrev EP : Emb (UR sig nD τ) 𝕄 := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The nine host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The four host operations after it, over the same buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m ρ) R

set_option backward.isDefEq.respectTransparency.types false in
/-- The region: entered from all the unscoped buffers after the nine operations — the four buffers behind the windows
    into the pipeline, the feature matrix split between its two windows, the rest bypassing —, left with the same
    buffers, the output array at its final contents, the feature matrix joined again. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (W₀ m ρ c) ∗ R c)
  post c := iprop(StableHlo.held (c : Thread nD τ) (Pipeline.ucRefs τ sig) (W₁ m ρ c) ∗ R c)
  X c := iprop(emp)
  Y c := iprop(emp)
  Z c := Pipeline.unscopedRest spec0 c (V m ρ c)
  hentry c := by
    rw [show StableHlo.held (c : Thread nD τ) (Pipeline.ucRefs τ sig) (W₀ m ρ c) = unscopedBufs c (V m ρ c) from (Pipeline.unscopedBufs_held c _).symm,
      unscopedBufs_split, arrBufs_eq, arrays_eq]
    iintro ⟨⟨⟨⟨H2, H7, H8, H9⟩, Hrest⟩, HO⟩, -, -⟩
    ihave H2' := (pointsTo_share (PosShare.mem_left_op_right fullShare)).1 $$ H2
    icases H2' with ⟨H2l, H2r⟩
    imodintro
    isplitl [H2l H2r H7 H8 H9]
    · isplitl [H2l]; · iexact H2l
      isplitl [H2r]; · iexact H2r
      isplitl [H7]; · iexact H7
      isplitl [H8]; · iexact H8
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (W₁ m ρ c) = unscopedBufs c (fun b => W₁ m ρ c (Proc.devRef .tc b)) from (Pipeline.unscopedBufs_held c _).symm,
      unscopedBufs_split, arrBufs_eq, arrays_eq, unscopedRest_W₁,
      W₁_of_ne m ρ c (by decide : main_v2 ≠ main_v9), W₁_of_ne m ρ c (by decide : main_v7 ≠ main_v9), W₁_of_ne m ρ c (by decide : main_v8 ≠ main_v9), W₁_out,
      (dats m ρ 0 c).arrAt_in 0 rfl, (dats m ρ 0 c).arrAt_in 1 rfl, (dats m ρ 0 c).arrAt_in 2 rfl, (dats m ρ 0 c).arrAt_in 3 rfl]
    iintro ⟨⟨H2l, H2r, H7, H8, H9⟩, HO, -, Hrest⟩
    ihave H2 := (pointsTo_share (f := V m ρ c main_v2) (PosShare.mem_left_op_right fullShare)).2 $$ [H2l H2r]
    · isplitl [H2l]; · iexact H2l
      iexact H2r
    imodintro
    isplitr [HO]
    · isplitl [H2 H7 H8 H9]
      · isplitl [H2]; · iexact H2
        isplitl [H7]; · iexact H7
        isplitl [H8]; · iexact H8
        iexact H9
      iexact Hrest
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-! ## The run -/

/-- The buffers at the end: the last four operations have run. -/
abbrev W₂ (c : Dev nD) : Valuation τ sig (Elt F) := StableHlo.after hostOps1 (W₁ m ρ c)

/-- The launch element: the pipeline library's at the staging cells. -/
def u₀ : UR sig nD τ := initOf (Pipeline.cells cfgs cellOf_inj) (Pipeline.launchToks cfgs cellOf_inj)

/-- The physical post: the result and the two arguments hold what the last valuation says. -/
def QC : PUnit × MemSt nD τ sig (Elt F) → Prop := fun r =>
  ∀ c : Dev nD, r.2.mem ((c : Thread nD τ).loc main_v11) = W₂ m ρ c (Proc.devRef .tc main_v11)
    ∧ r.2.mem ((c : Thread nD τ).loc main_arg0) = W₂ m ρ c (Proc.devRef .tc main_arg0)
    ∧ r.2.mem ((c : Thread nD τ).loc main_arg1) = W₂ m ρ c (Proc.devRef .tc main_arg1)

set_option backward.isDefEq.respectTransparency.types false in
/-- At the compiled mesh, from any memory with zero counters: every weakly fair execution of @main on the TensorCores
    terminates, nothing faulting, and every final state has the result and both arguments at the last valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (W₂ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v11) = W₂ m ρ c (Proc.devRef .tc main_v11)
      ∧ s.mem ((c : Thread nD τ).loc main_arg0) = W₂ m ρ c (Proc.devRef .tc main_arg0)
      ∧ s.mem ((c : Thread nD τ).loc main_arg1) = W₂ m ρ c (Proc.devRef .tc main_arg1))
    (hfin := fun c s' => by
      rw [show StableHlo.held (c : Thread nD τ) (Pipeline.ucRefs τ sig) (W₂ m ρ c) = unscopedBufs c (fun b => W₂ m ρ c (Proc.devRef .tc b)) from (Pipeline.unscopedBufs_held c _).symm,
        unscopedBufs_split, unscopedRest0_eq]
      iintro ⟨⟨-, H0, H1, -, -, -, -, -, -, -, -, -, H11⟩, HSI⟩
      icombine HSI H0 gives %h0
      icombine HSI H1 gives %h1
      icombine HSI H11 gives %h11
      imodintro
      isplitr; · ipureintro; exact ⟨Buf.eq_of_forall_mem_univ h11, Buf.eq_of_forall_mem_univ h0, Buf.eq_of_forall_mem_univ h1⟩
      iexact HSI)
    (hQ := fun _ h => h)

/-- info: 'Cert.Kernel.Body.run_main' depends on axioms: [propext, Classical.choice, Quot.sound] -/
#guard_msgs in #print axioms run_main

end Cert.Kernel.Body

end
-- ==== Proof.FrameBits.lean ====
/-
  The frame of `Kernel`: @main runs to the end, nothing faulting, and both argument arrays end as launched.

  No host operation writes an argument array — the nine before the region write the re-laid copies, the four after it the
  sum and the mean — and the region's only output is its own result array; so the arguments at the last valuation
  are the arguments as launched.
-/
import proofs.«176974_j89670327206311_1_alg».proof.Proof.RunBits

set_option maxRecDepth 16384

noncomputable section

namespace Cert.Kernel.Body

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- None of the nine operations before the region writes an argument. -/
theorem kept0 (W : Valuation τ sig (Elt F)) {b : Ref sig .tc} (hb : b = main_arg0 ∨ b = main_arg1) :
    StableHlo.after (hostOps0 (F := F)) W (Proc.devRef .tc b) = W (Proc.devRef .tc b) := by
  refine StableHlo.after_of_forall_not_mem hostOps0 W fun op hop => ?_
  simp only [List.mem_cons, List.mem_nil_iff, or_false] at hop
  rcases hb with rfl | rfl <;> rcases hop with rfl | rfl | rfl | rfl | rfl | rfl | rfl | rfl | rfl <;>
    simp only [StableHlo.unary_writes, StableHlo.reshape_writes, Finset.mem_singleton] <;>
    exact StableHlo.devRef_ne_of_ne (by decide)

/-- None of the four after it does. -/
theorem kept1 (W : Valuation τ sig (Elt F)) {b : Ref sig .tc} (hb : b = main_arg0 ∨ b = main_arg1) :
    StableHlo.after (hostOps1 (F := F)) W (Proc.devRef .tc b) = W (Proc.devRef .tc b) := by
  refine StableHlo.after_of_forall_not_mem hostOps1 W fun op hop => ?_
  simp only [List.mem_cons, List.mem_nil_iff, or_false] at hop
  rcases hb with rfl | rfl <;> rcases hop with rfl | rfl | rfl | rfl <;>
    simp only [StableHlo.nullary_writes, StableHlo.binary_writes, Finset.mem_singleton] <;>
    exact StableHlo.devRef_ne_of_ne (by decide)

/-- An argument at the last valuation is the argument as launched. -/
theorem W₂_arg (c : Dev nD) {b : Ref sig .tc} (hb : b = main_arg0 ∨ b = main_arg1) :
    W₂ m ρ c (Proc.devRef .tc b) = m ((c : Thread nD τ).loc b) := by
  have h9 : b ≠ main_v9 := by rcases hb with rfl | rfl <;> decide
  rw [show W₂ m ρ c = StableHlo.after hostOps1 (W₁ m ρ c) from rfl, kept1 _ hb, W₁_of_ne m ρ c h9,
    show W₀ m ρ c = StableHlo.after hostOps0 (V₀ m ρ c) from rfl, kept0 _ hb]

/-- The run with the result named and the arguments unchanged. -/
theorem run_named : θ_run defs (onTc (τ := τ) (main (F := F))) ⟨m, fun _ => 0, ρ⟩ (fun r => ∀ c : Dev nD,
      r.2.mem ((c.tc : Thread nD τ).loc main_v11) = W₂ m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, ((h c).2.1).trans (W₂_arg m ρ c (.inl rfl)), ((h c).2.2).trans (W₂_arg m ρ c (.inr rfl))⟩)
    (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Body

end
-- ==== Proof.BodyIdeal.lean ====
/-
  The body of the one kernel region of `KernelIdeal`, at every grid point.

  The region's grid has 64 points; at point `t` the kernel is handed five staged blocks: rows `128 t … 128 t + 127` of
  the re-laid feature matrix (window 0), the WHOLE feature matrix again (window 1: the same array, staged once and kept),
  the labels of those 128 rows as a column (window 2), all 8192 labels as a row (window 3), and the 128 output rows
  (window 4). The body loads the four inputs whole, computes one value for each of its 128 rows, and stores the 128
  values over the whole output block; it leaves the inputs as it found them. So after the body an input's buffer holds
  its block, and the output's holds the body's value of the four input blocks at that point (`rowLosses`).
-/
import proofs.«176974_j89670327206311_1_alg».proof.Proof.Gen.KernelIdeal.Launch
import proofs.«176974_j89670327206311_1_alg».proof.Proof.Gen.KernelIdeal.Skeleton
import proofs.«176974_j89670327206311_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => (s₀ m ρ).mem ((c : Dev nD), b)
/-- and when the region is entered: the nine host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the output block -/

abbrev r0 : Rect S128x256 := Rect.unit (s := S128x256) ![0, 0] S128x256.size inb_S128x256_S128x256_0_0
abbrev r1 : Rect S8192x256 := Rect.unit (s := S8192x256) ![0, 0] S8192x256.size inb_S8192x256_S8192x256_0_0
abbrev r2 : Rect S128x1 := Rect.unit (s := S128x1) ![0, 0] S128x1.size inb_S128x1_S128x1_0_0
abbrev r3 : Rect S1x8192 := Rect.unit (s := S1x8192) ![0, 0] S1x8192.size inb_S1x8192_S1x8192_0_0

/-- The 128 row losses of the point with coordinates `i`, from the four input blocks: the body's one store, over the
    whole output block. -/
def rowLosses (i : grid0.Coords) (x0 : Vec F S128x256 .bf16) (x1 : Vec F S8192x256 .bf16) (x2 : Vec F S128x1 .i32) (x3 : Vec F S1x8192 .i32) :
    Vec F S128x1 .f32 :=
  View.canon [⟨r2, k0_pay1 (k0_pay2 i (View.ld x0 r0) (View.ld x1 r1) (View.ld x2 r2) (View.ld x3 r3)) (Scalar.ofBits .f32 0xBFB6DB6E#32)⟩]

/-- The one store covers the output block. -/
theorem cover_out (p0 : Vec F S128x1 .f32) (y : S128x1.Idx) :
    ∃ pc ∈ ([⟨r2, p0⟩] : List (View.Piece (Elt F) S128x1 .f32)), y ∈ pc.1.set :=
  View.cover_of_tiled [⟨r2, p0⟩] S128x1.size (by rfl) y

/-! ## The body's triple -/

set_option maxHeartbeats 1000000 in
/-- The body on whole staging buffers — the inputs' at contents `x0 … x3`, the output's at anything — runs to the
    inputs' as they were and the output's at the row losses of the inputs. -/
theorem sound_kernel (c : Dev nD) (E : Set ℕ) (i : grid0.Coords)
    (arg1 : Memref sig .tc .vmem S128x256 .bf16) (harg1 : arg1.IsWhole) (arg2 : Memref sig .tc .vmem S8192x256 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x256 .bf16) (x1 : Vec F S8192x256 .bf16) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowLosses i x0 x1 x2 x3)) -∗ K ⟨⟩))
      ⊢ wp frame (wpE (defs₀ (F := F)) Variants.none c none) E (cc0__supcon_kernel i arg1 harg1 arg2 harg2 arg3 harg3 arg4 harg4 arg5 harg5) K := by
  simp only [cc0__supcon_kernel_eq_skeleton]; unfold cc0__supcon_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.DataIdeal.lean ====
/-
  The proof data of the one kernel region of `KernelIdeal`, and the body obligation at every grid point.

  The arrays are what the region finds. After the body at point `t` an input's staging buffer holds its block —
  whether the block was fetched at `t` or kept from the point before: windows 1 and 3 (the whole feature matrix, all the
  labels) are fetched at the first point only and their block index never moves — and the output's holds the 128 row
  losses of the point. The feature matrix is ONE array behind windows 0 and 1, both inputs: the core holds it at two
  complementary shares, one per window. Nothing is owed; the invariant is the scoped buffers no window stages (none).
-/
import proofs.«176974_j89670327206311_1_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The share of its array each window's reads go through: the feature matrix halved between windows 0 and 1. -/
def winShare : Fin cfg0.W → PosShare TreeShare := fun w => match w with
  | ⟨0, _⟩ => fullShare.left
  | ⟨1, _⟩ => fullShare.right
  | _ => fullShare

/-- The proof data of the pipeline on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => rowLosses (grid0.coords t) (iblk m ρ c 0 t) (iblk m ρ c 1 t) (iblk m ρ c 2 t) (iblk m ρ c 3 t)
  Φ _ := Pipeline.scopedRest (Ix := Unit) (Name := ℕ) (U := UR sig nD τ) (Lvl := ℕ) (Val := Elt F) spec0 c
  q := winShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t
    = rowLosses (grid0.coords t) (iblk m ρ c 0 t) (iblk m ρ c 1 t) (iblk m ρ c 2 t) (iblk m ρ c 3 t) := by dsimp only [dats]

/-- Each input's current staging buffer holds its block at every point, fetched there or not. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t))

/-- The body at any point: the inputs' buffers hold their blocks, so the body's triple applies; the invariant and what
    the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Body

end
-- ==== Proof.RunIdeal.lean ====
/-
  The run of `KernelIdeal`'s @main: nine host operations, the kernel region, four host operations.

  The host operations before the region re-lay the features as an 8192 × 256 matrix and the labels as a column and as a
  row; the region computes the 8192 row losses, 128 per grid point; the host operations after it sum them and divide by
  8192. The launch is the library's for @main as a LIST OF SEGMENTS: a host segment, the region, a host segment.
  Between segments the core holds all its unscoped buffers whole, at a valuation: as launched; then after the first
  nine operations; then, when the region is left, the same with the output array at its final contents; then after the
  last four operations. Inside the region the re-laid feature matrix, ONE array read through two windows, is held
  at two complementary shares, one per window: it is split when the region is entered and joined again when it is left
  (both windows are inputs, so the array ends as it was found).
-/
import proofs.«176974_j89670327206311_1_alg».proof.Proof.DataIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' arrays and the buffers behind them -/

/-- Four buffers stand behind the five windows. -/
theorem arrRefs_eq : Finset.univ.image (Pipeline.arrRef spec0) = ([main_v2, main_v7, main_v8, main_v9] : List (Ref sig .tc)).toFinset := by
  decide

/-- The buffers behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v7) ↦{fullShare} W main_v7)
          ∗ (((c : Thread nD τ).loc main_v8) ↦{fullShare} W main_v8) ∗ (((c : Thread nD τ).loc main_v9) ↦{fullShare} W main_v9)) := by
  unfold Pipeline.arrBufs
  exact bigSep_eq_bigSepL_of_eq _ arrRefs_eq (by decide) _

/-- A core's unscoped buffers are the buffers behind the windows and the rest. -/
theorem unscopedBufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs spec0 c W ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The pipeline's arrays at contents `G`, window by window, each at its window's share. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_v2) ↦{fullShare.left} G 0) ∗ (((c : Thread nD τ).loc main_v2) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The valuations between the segments -/

/-- The buffers when the region is entered: the nine operations have run. -/
abbrev W₀ (c : Dev nD) : Valuation τ sig (Elt F) := StableHlo.after hostOps0 (V₀ m ρ c)

/-- The buffers when the region is left: the output array at its final contents, every other one as the region found it. -/
def W₁ (c : Dev nD) : Valuation τ sig (Elt F) :=
  Function.update (W₀ m ρ c) (Proc.devRef .tc main_v9) ((dats m ρ 0 c).arrAt 4 cfg0.N)

theorem W₁_out (c : Dev nD) : W₁ m ρ c (Proc.devRef .tc main_v9) = (dats m ρ 0 c).arrAt 4 cfg0.N := by
  unfold W₁; exact Function.update_self _ _ _

theorem W₁_of_ne (c : Dev nD) {b : Ref sig .tc} (h : b ≠ main_v9) : W₁ m ρ c (Proc.devRef .tc b) = W₀ m ρ c (Proc.devRef .tc b) := by
  unfold W₁; exact Function.update_of_ne (StableHlo.devRef_ne_of_ne h) _ _

/-- The unscoped buffers no window stages are untouched by the region. -/
theorem unscopedRest_W₁ (c : Dev nD) :
    (Pipeline.unscopedRest (Ix := Unit) (Name := ℕ) (U := UR sig nD τ) (Lvl := ℕ) spec0 c (fun b => W₁ m ρ c (Proc.devRef .tc b)) : sProp 𝕄)
      = Pipeline.unscopedRest spec0 c (V m ρ c) := by
  unfold Pipeline.unscopedRest
  refine bigSep_congr fun b hb => ?_
  have h9 : main_v9 ∈ Finset.univ.image (Pipeline.arrRef spec0) := by rw [arrRefs_eq]; decide
  have hb9 : b ≠ main_v9 := fun e => (Finset.mem_sdiff.mp hb).2 (by rw [e]; exact h9)
  exact congrArg (fun f => (((c : Thread nD τ).loc b) ↦{fullShare} f : sProp 𝕄)) (W₁_of_ne m ρ c hb9)

/-! ## The segments -/

abbrev EP : Emb (UR sig nD τ) 𝕄 := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The nine host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The four host operations after it, over the same buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m ρ) R

set_option backward.isDefEq.respectTransparency.types false in
/-- The region: entered from all the unscoped buffers after the nine operations — the four buffers behind the windows
    into the pipeline, the feature matrix split between its two windows, the rest bypassing —, left with the same
    buffers, the output array at its final contents, the feature matrix joined again. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (W₀ m ρ c) ∗ R c)
  post c := iprop(StableHlo.held (c : Thread nD τ) (Pipeline.ucRefs τ sig) (W₁ m ρ c) ∗ R c)
  X c := iprop(emp)
  Y c := iprop(emp)
  Z c := Pipeline.unscopedRest spec0 c (V m ρ c)
  hentry c := by
    rw [show StableHlo.held (c : Thread nD τ) (Pipeline.ucRefs τ sig) (W₀ m ρ c) = unscopedBufs c (V m ρ c) from (Pipeline.unscopedBufs_held c _).symm,
      unscopedBufs_split, arrBufs_eq, arrays_eq]
    iintro ⟨⟨⟨⟨H2, H7, H8, H9⟩, Hrest⟩, HO⟩, -, -⟩
    ihave H2' := (pointsTo_share (PosShare.mem_left_op_right fullShare)).1 $$ H2
    icases H2' with ⟨H2l, H2r⟩
    imodintro
    isplitl [H2l H2r H7 H8 H9]
    · isplitl [H2l]; · iexact H2l
      isplitl [H2r]; · iexact H2r
      isplitl [H7]; · iexact H7
      isplitl [H8]; · iexact H8
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (W₁ m ρ c) = unscopedBufs c (fun b => W₁ m ρ c (Proc.devRef .tc b)) from (Pipeline.unscopedBufs_held c _).symm,
      unscopedBufs_split, arrBufs_eq, arrays_eq, unscopedRest_W₁,
      W₁_of_ne m ρ c (by decide : main_v2 ≠ main_v9), W₁_of_ne m ρ c (by decide : main_v7 ≠ main_v9), W₁_of_ne m ρ c (by decide : main_v8 ≠ main_v9), W₁_out,
      (dats m ρ 0 c).arrAt_in 0 rfl, (dats m ρ 0 c).arrAt_in 1 rfl, (dats m ρ 0 c).arrAt_in 2 rfl, (dats m ρ 0 c).arrAt_in 3 rfl]
    iintro ⟨⟨H2l, H2r, H7, H8, H9⟩, HO, -, Hrest⟩
    ihave H2 := (pointsTo_share (f := V m ρ c main_v2) (PosShare.mem_left_op_right fullShare)).2 $$ [H2l H2r]
    · isplitl [H2l]; · iexact H2l
      iexact H2r
    imodintro
    isplitr [HO]
    · isplitl [H2 H7 H8 H9]
      · isplitl [H2]; · iexact H2
        isplitl [H7]; · iexact H7
        isplitl [H8]; · iexact H8
        iexact H9
      iexact Hrest
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-! ## The run -/

/-- The buffers at the end: the last four operations have run. -/
abbrev W₂ (c : Dev nD) : Valuation τ sig (Elt F) := StableHlo.after hostOps1 (W₁ m ρ c)

/-- The launch element: the pipeline library's at the staging cells. -/
def u₀ : UR sig nD τ := initOf (Pipeline.cells cfgs cellOf_inj) (Pipeline.launchToks cfgs cellOf_inj)

/-- The physical post: the result and the two arguments hold what the last valuation says. -/
def QC : PUnit × MemSt nD τ sig (Elt F) → Prop := fun r =>
  ∀ c : Dev nD, r.2.mem ((c : Thread nD τ).loc main_v11) = W₂ m ρ c (Proc.devRef .tc main_v11)
    ∧ r.2.mem ((c : Thread nD τ).loc main_arg0) = W₂ m ρ c (Proc.devRef .tc main_arg0)
    ∧ r.2.mem ((c : Thread nD τ).loc main_arg1) = W₂ m ρ c (Proc.devRef .tc main_arg1)

set_option backward.isDefEq.respectTransparency.types false in
/-- At the compiled mesh, from any memory with zero counters: every weakly fair execution of @main on the TensorCores
    terminates, nothing faulting, and every final state has the result and both arguments at the last valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (W₂ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v11) = W₂ m ρ c (Proc.devRef .tc main_v11)
      ∧ s.mem ((c : Thread nD τ).loc main_arg0) = W₂ m ρ c (Proc.devRef .tc main_arg0)
      ∧ s.mem ((c : Thread nD τ).loc main_arg1) = W₂ m ρ c (Proc.devRef .tc main_arg1))
    (hfin := fun c s' => by
      rw [show StableHlo.held (c : Thread nD τ) (Pipeline.ucRefs τ sig) (W₂ m ρ c) = unscopedBufs c (fun b => W₂ m ρ c (Proc.devRef .tc b)) from (Pipeline.unscopedBufs_held c _).symm,
        unscopedBufs_split, unscopedRest0_eq]
      iintro ⟨⟨-, H0, H1, -, -, -, -, -, -, -, -, -, H11⟩, HSI⟩
      icombine HSI H0 gives %h0
      icombine HSI H1 gives %h1
      icombine HSI H11 gives %h11
      imodintro
      isplitr; · ipureintro; exact ⟨Buf.eq_of_forall_mem_univ h11, Buf.eq_of_forall_mem_univ h0, Buf.eq_of_forall_mem_univ h1⟩
      iexact HSI)
    (hQ := fun _ h => h)

/-- info: 'Cert.KernelIdeal.Body.run_main' depends on axioms: [propext, Classical.choice, Quot.sound] -/
#guard_msgs in #print axioms run_main

end Cert.KernelIdeal.Body

end
-- ==== Proof.FrameIdeal.lean ====
/-
  The frame of `KernelIdeal`: @main runs to the end, nothing faulting, and both argument arrays end as launched.

  No host operation writes an argument array — the nine before the region write the re-laid copies, the four after it the
  sum and the mean — and the region's only output is its own result array; so the arguments at the last valuation
  are the arguments as launched.
-/
import proofs.«176974_j89670327206311_1_alg».proof.Proof.RunIdeal

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)

/-- None of the nine operations before the region writes an argument. -/
theorem kept0 (W : Valuation τ sig (Elt F)) {b : Ref sig .tc} (hb : b = main_arg0 ∨ b = main_arg1) :
    StableHlo.after (hostOps0 (F := F)) W (Proc.devRef .tc b) = W (Proc.devRef .tc b) := by
  refine StableHlo.after_of_forall_not_mem hostOps0 W fun op hop => ?_
  simp only [List.mem_cons, List.mem_nil_iff, or_false] at hop
  rcases hb with rfl | rfl <;> rcases hop with rfl | rfl | rfl | rfl | rfl | rfl | rfl | rfl | rfl <;>
    simp only [StableHlo.unary_writes, StableHlo.reshape_writes, Finset.mem_singleton] <;>
    exact StableHlo.devRef_ne_of_ne (by decide)

/-- None of the four after it does. -/
theorem kept1 (W : Valuation τ sig (Elt F)) {b : Ref sig .tc} (hb : b = main_arg0 ∨ b = main_arg1) :
    StableHlo.after (hostOps1 (F := F)) W (Proc.devRef .tc b) = W (Proc.devRef .tc b) := by
  refine StableHlo.after_of_forall_not_mem hostOps1 W fun op hop => ?_
  simp only [List.mem_cons, List.mem_nil_iff, or_false] at hop
  rcases hb with rfl | rfl <;> rcases hop with rfl | rfl | rfl | rfl <;>
    simp only [StableHlo.nullary_writes, StableHlo.binary_writes, Finset.mem_singleton] <;>
    exact StableHlo.devRef_ne_of_ne (by decide)

/-- An argument at the last valuation is the argument as launched. -/
theorem W₂_arg (c : Dev nD) {b : Ref sig .tc} (hb : b = main_arg0 ∨ b = main_arg1) :
    W₂ m ρ c (Proc.devRef .tc b) = m ((c : Thread nD τ).loc b) := by
  have h9 : b ≠ main_v9 := by rcases hb with rfl | rfl <;> decide
  rw [show W₂ m ρ c = StableHlo.after hostOps1 (W₁ m ρ c) from rfl, kept1 _ hb, W₁_of_ne m ρ c h9,
    show W₀ m ρ c = StableHlo.after hostOps0 (V₀ m ρ c) from rfl, kept0 _ hb]

/-- The run with the result named and the arguments unchanged. -/
theorem run_named : θ_run defs (onTc (τ := τ) (main (F := F))) ⟨m, fun _ => 0, ρ⟩ (fun r => ∀ c : Dev nD,
      r.2.mem ((c.tc : Thread nD τ).loc main_v11) = W₂ m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, ((h c).2.1).trans (W₂_arg m ρ c (.inl rfl)), ((h c).2.2).trans (W₂_arg m ρ c (.inr rfl))⟩)
    (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Body

end
-- ==== Proof.Spec.lean ====
/-
  The supervised contrastive loss of a batch of 4096 samples in two views, as ONE function of the two argument
  arrays — features `x : [4096, 2, 256]` and integer labels `l : [4096, 1]` — written in the two arrangements the two
  programs compute it in.

  The 8192 rows are the views laid one after the other: row `i` is view `i / 4096` of sample `i % 4096`. The Gram
  entry of rows `i, j` is the sum over the 256 features of the products; a logit is a Gram entry times the inverse
  temperature. Row `j` is a POSITIVE of row `i` when the two samples carry the same label and `j ≠ i`. With `m i`
  the largest logit of row `i` and `S i` the sum over `j ≠ i` of `exp (logit i j - m i)`, the log-probability of `j`
  given `i` is `logit i j - m i - log (S i)`, and the loss of row `i` is a fixed coefficient times the mean of that
  log-probability over the positives of `i`. The loss is the mean of the rows' losses.

  One arrangement takes the mean of the positives' logits first and subtracts `m i` and `log (S i)` from it once;
  the other subtracts them from every logit and takes the mean after. They agree whenever every row has a positive
  and every quantity is a real number: the mean of `a j - c` over a nonempty set is the mean of `a j`, less `c`.
-/
import Idealize.ShloMosaic.PureOps.Ideal
import Idealize.ShloMosaic.Lib.ValueIdx

noncomputable section

namespace Cert.SupCon

open Idealize.ShloMosaic Idealize.ShloMosaic.ValueIdx

/-- The features: sample, view, feature. -/
abbrev Feat : Type := (⟨3, ![4096, 2, 256]⟩ : Shape).Idx → EReal
/-- The labels, one per sample. -/
abbrev Lab : Type := (⟨2, ![4096, 1]⟩ : Shape).Idx → BitVec 32

/-- The sample row `i` shows. -/
def sample (i : Fin 8192) : Fin 4096 := ⟨i.val % 4096, Nat.mod_lt _ (by norm_num)⟩
/-- The view row `i` shows. -/
def view (i : Fin 8192) : Fin 2 := ⟨i.val / 4096, by have := i.isLt; omega⟩

/-- Feature `k` of row `i`. -/
def row (x : Feat) (i : Fin 8192) (k : Fin 256) : EReal := x (ix3 (sample i) (view i) k)
/-- The label of row `i`: its sample's. -/
def lab (l : Lab) (i : Fin 8192) : BitVec 32 := l (ix2 (sample i) (0 : Fin 1))

/-- The Gram entry of rows `i` and `j`. -/
def gram (x : Feat) (i j : Fin 8192) : EReal := ∑ k : Fin 256, row x i k * row x j k

/-- The inverse temperature: the reciprocal of the temperature's single-precision value `13421773 / 2^27`. -/
def invTemp : EReal := ((134217728 / 13421773 : ℝ) : EReal)

/-- The logit of row `j` for row `i`. -/
def logit (x : Feat) (i j : Fin 8192) : EReal := gram x i j * invTemp

/-- `1` off the diagonal, `0` on it. -/
def notSelf (i j : Fin 8192) : EReal := if i = j then 0 else 1
/-- `1` when the two rows' samples carry one label. -/
def same (l : Lab) (i j : Fin 8192) : EReal := if lab l i = lab l j then 1 else 0
/-- `1` when `j` is a positive of `i`. -/
def pos (l : Lab) (i j : Fin 8192) : EReal := same l i j * notSelf i j

/-- The largest logit of row `i`. -/
def rowMax (x : Feat) (i : Fin 8192) : EReal := Finset.univ.sup (logit x i)
/-- The sum over the other rows of the exponentials of the logits less the largest. -/
def sumExp (x : Feat) (i : Fin 8192) : EReal := ∑ j : Fin 8192, Ideal.exp (logit x i j - rowMax x i) * notSelf i j
/-- How many positives row `i` has. -/
def count (l : Lab) (i : Fin 8192) : EReal := ∑ j : Fin 8192, pos l i j

/-- The coefficient: minus the ratio of the two temperatures, as the single-precision word both programs carry. -/
def coef : EReal := Ideal.ofBits .f32 0xBFB6DB6E#32
/-- The number of rows, as the single-precision word both programs carry (8192). -/
def rows : EReal := Ideal.ofBits .f32 0x46000000#32

/-- Row `i`'s loss, the mean of the positives' logits taken first. -/
def rowLossMeanFirst (x : Feat) (l : Lab) (i : Fin 8192) : EReal :=
  coef * ((Ideal.div (∑ j : Fin 8192, pos l i j * logit x i j) (count l i) - rowMax x i) - Ideal.log (sumExp x i))

/-- Row `i`'s loss, the mean of the positives' log-probabilities. -/
def rowLossMeanLast (x : Feat) (l : Lab) (i : Fin 8192) : EReal :=
  coef * Ideal.div (∑ j : Fin 8192, pos l i j * ((logit x i j - rowMax x i) - Ideal.log (sumExp x i))) (count l i)

/-- The loss, rows in the first arrangement. -/
def lossMeanFirst (x : Feat) (l : Lab) : EReal := Ideal.div (0 + ∑ i : Fin 8192, rowLossMeanFirst x l i) rows
/-- The loss, rows in the second arrangement. -/
def lossMeanLast (x : Feat) (l : Lab) : EReal := Ideal.div (0 + ∑ i : Fin 8192, rowLossMeanLast x l i) rows

end Cert.SupCon

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.PayloadGram.lean ====
/-
  The kernel's matrix product at an index: the 128 x 256 block of rows times the transpose of the whole
  8192 x 256 matrix, onto a zero accumulator, is at `(r, j)` the sum over the 256 features of the products
  of the block's row `r` and the matrix's row `j` — a Gram entry.
-/
import proofs.«176974_j89670327206311_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.SupCon.Ker

open Cert.KernelIdeal Cert.KernelIdeal.Gen Idealize.ShloMosaic Idealize.ShloMosaic.ValueIdx

/-- The product's dimension numbers: contract the block's axis 1 with the transposed matrix's axis 0. -/
abbrev dotD : DotDims S128x256 S256x8192 S128x8192 := dot_S128x256_S256x8192_S128x8192_1_0_0_1_n_n

theorem lhsIdx_row (i : S128x8192.Idx) (q : dotD.contr.Idx) : (dotD.lhsIdx i q 0).val = (i 0).val := by
  unfold DotDims.lhsIdx
  rw [dif_neg (show ¬(0 : Fin S128x256.rank) ∈ dotD.lhsBatch by decide),
    dif_pos (show (0 : Fin S128x256.rank) ∈ dotD.lhsNonContracting by decide)]
  rfl

theorem lhsIdx_feature (i : S128x8192.Idx) (q : dotD.contr.Idx) :
    (dotD.lhsIdx i q 1).val = (q ⟨0, by decide⟩).val :=
  dotD.lhsIdx_val_of_single rfl i q

theorem rhsIdx_feature (i : S128x8192.Idx) (q : dotD.contr.Idx) :
    (dotD.rhsIdx i q 0).val = (q ⟨0, by decide⟩).val :=
  dotD.rhsIdx_val_of_single rfl i q

theorem rhsIdx_col (i : S128x8192.Idx) (q : dotD.contr.Idx) : (dotD.rhsIdx i q 1).val = (i 1).val := by
  unfold DotDims.rhsIdx
  rw [dif_neg (show ¬(1 : Fin S256x8192.rank) ∈ dotD.rhsBatch by decide),
    dif_pos (show (1 : Fin S256x8192.rank) ∈ dotD.rhsNonContracting by decide)]
  rfl

/-- The matrix product at `(r, j)`. -/
theorem matmul_gram (x0 : FVec Ideal S128x256 .bf16) (x1 : FVec Ideal S8192x256 .bf16)
    (h0 : S128x256.ShapeCasts S128x256) (h1 : S8192x256.ShapeCasts S8192x256)
    (ht : S8192x256.Transposes [1, 0] S256x8192) (r : Fin 128) (j : Fin 8192) :
    matmul dotD none (shapeCast S128x256 x0 h0) (transpose S256x8192 [1, 0] (shapeCast S8192x256 x1 h1) ht)
      (constant S128x8192 .f32 0x00000000#32) (ix2 r j)
    = ∑ k : Fin 256, x0 (ix2 r k) * x1 (ix2 j k) := by
  rw [shapeCast_self, shapeCast_self]
  simp only [matmul]
  rw [Ideal.matmul_constant_zero_apply, ← Equiv.sum_comp (contrEquiv1 dotD 256 rfl rfl).symm]
  refine Finset.sum_congr rfl fun k _ => ?_
  have hk := contrEquiv1_symm_val dotD 256 rfl rfl k
  have el : dotD.lhsIdx (ix2 r j) ((contrEquiv1 dotD 256 rfl rfl).symm k) = ix2 r k :=
    funext fun a => Fin.ext (by
      match a with
      | ⟨0, _⟩ => exact lhsIdx_row _ _
      | ⟨1, _⟩ => exact (lhsIdx_feature _ _).trans hk)
  have er : dotD.rhsIdx (ix2 r j) ((contrEquiv1 dotD 256 rfl rfl).symm k) = ix2 k j :=
    funext fun a => Fin.ext (by
      match a with
      | ⟨0, _⟩ => exact (rhsIdx_feature _ _).trans hk
      | ⟨1, _⟩ => exact rhsIdx_col _ _)
  rw [el, er, transpose_ix2_apply]

end Cert.SupCon.Ker

end
-- ==== Proof.PayloadTail.lean ====
/-
  The kernel's row reductions, as a function of three 128 x 8192 arrays: the logits `a`, the not-self mask
  `n` and the same-label mask `s`. With `p = s * n` the positives' mask, the body takes along each row the
  largest logit `m`, the sum of `exp (a - m) * n`, the sum of `p * a` and the sum of `p`, each kept as one
  column, and returns `(sum of p * a) / (sum of p) - m - log (sum of exp (a - m) * n)`.
-/
import proofs.«176974_j89670327206311_1_alg».proof.Proof.Gen.KernelIdeal.Skeleton
import proofs.«176974_j89670327206311_1_alg».proof.Proof.LibKeepdims

noncomputable section

namespace Cert.SupCon.Ker

open Cert.KernelIdeal Cert.KernelIdeal.Gen Idealize.ShloMosaic Idealize.ShloMosaic.ValueIdx

/-- An exponential at an index is the exponential of the element … -/
theorem exp_apply {s : Shape} {φ : FTy} (a : FVec Ideal s φ) (i : s.Idx) : exp a i = Ideal.exp (a i) := rfl
/-- … and a logarithm the logarithm. -/
theorem log_apply {s : Shape} {φ : FTy} (a : FVec Ideal s φ) (i : s.Idx) : log a i = Ideal.log (a i) := rfl

/-- A sum along the rows of a 128 x 8192 array from the zero word, at row `r`. -/
theorem sum_rows (src : FVec Ideal S128x8192 .f32) (h : S128x8192.Reduces [1] S128) (hφ : FKind.Formats .f32)
    (hacc : (0x00000000#32 : BitVec 32) = 0x00000000#32) (r : Fin 128) :
    multiReduction .add [1] S128 src 0x00000000#32 h hφ hacc (ix1 r) = ∑ k : Fin 8192, src (ix2 r k) :=
  (Ideal.multiReduction_add_single src 0x00000000#32 h hφ hacc (ix1 r)).trans
    (Finset.sum_congr rfl fun k _ => congrArg src (lift_rows h r k))

/-- A fold of `max` from the word of minus infinity is the supremum. -/
theorem fold_max_negInf {n : ℕ} (f : Fin n → EReal) :
    (Finset.univ : Finset (Fin n)).fold max (FloatOps.ofBits (F := Ideal) .f32 0xFF800000#32) f = Finset.univ.sup f := by
  show Finset.univ.fold max (Ideal.ofBits .f32 0xFF800000#32) f = _
  rw [ofBits_negInf]
  rfl

/-- A maximum along the rows of a 128 x 8192 array from the word of minus infinity, at row `r`. -/
theorem max_rows (src : FVec Ideal S128x8192 .f32) (h : S128x8192.Reduces [1] S128) (hφ : FKind.Formats .f32)
    (hacc : (0xFF800000#32 : BitVec 32) = 0xFF800000#32) (r : Fin 128) :
    multiReduction .maximumf [1] S128 src 0xFF800000#32 h hφ hacc (ix1 r)
      = (Finset.univ : Finset (Fin 8192)).sup fun k => src (ix2 r k) := by
  exact (Ideal.multiReduction_maximumf_single src 0xFF800000#32 h hφ hacc (ix1 r)).trans
    ((fold_max_negInf (n := 8192) (src ∘ h.lift (ix1 r))).trans
      (congrArg (Finset.univ : Finset (Fin 8192)).sup (funext fun k => congrArg src (lift_rows h r k))))

/-- The body's operations after the three arrays, as the kernel applies them. -/
def rowReductions (a n s : FVec Ideal S128x8192 .f32) : FVec Ideal S128x1 .f32 :=
  have v25 : FVec Ideal S128x8192 .f32 := mulf s n
  have v26 : FVec Ideal S128 .f32 := multiReduction .maximumf [1] S128 a 0xFF800000#32 reduces_S128x8192_S128 (.inl rfl) rfl
  have v27 : FVec Ideal S128x1 .f32 := shapeCast S128x1 v26 shapeCasts_S128_S128x1
  have v28 : FVec Ideal S128x8192 .f32 := broadcastTo S128x8192 v27 broadcasts_S128x1_S128x8192
  have v29 : FVec Ideal S128x8192 .f32 := subf a v28
  have v30 : FVec Ideal S128x8192 .f32 := exp v29
  have v31 : FVec Ideal S128x8192 .f32 := mulf v30 n
  have v32 : FVec Ideal S128 .f32 := multiReduction .add [1] S128 v31 0x00000000#32 reduces_S128x8192_S128 (.inl rfl) rfl
  have v33 : FVec Ideal S128x1 .f32 := shapeCast S128x1 v32 shapeCasts_S128_S128x1
  have v34 : FVec Ideal S128x8192 .f32 := mulf v25 a
  have v35 : FVec Ideal S128 .f32 := multiReduction .add [1] S128 v34 0x00000000#32 reduces_S128x8192_S128 (.inl rfl) rfl
  have v36 : FVec Ideal S128x1 .f32 := shapeCast S128x1 v35 shapeCasts_S128_S128x1
  have v37 : FVec Ideal S128 .f32 := multiReduction .add [1] S128 v25 0x00000000#32 reduces_S128x8192_S128 (.inl rfl) rfl
  have v38 : FVec Ideal S128x1 .f32 := shapeCast S128x1 v37 shapeCasts_S128_S128x1
  have v39 : FVec Ideal S128x1 .f32 := divf v36 v38
  have v40 : FVec Ideal S128x1 .f32 := subf v39 v27
  have v41 : FVec Ideal S128x1 .f32 := log v33
  have v42 : FVec Ideal S128x1 .f32 := subf v40 v41
  v42

/-- The row reductions at row `r`. -/
theorem rowReductions_apply (a n s : FVec Ideal S128x8192 .f32) (r : Fin 128) :
    rowReductions a n s (ix2 r (0 : Fin 1))
      = (Ideal.div (∑ j : Fin 8192, (s (ix2 r j) * n (ix2 r j)) * a (ix2 r j)) (∑ j : Fin 8192, s (ix2 r j) * n (ix2 r j))
          - (Finset.univ : Finset (Fin 8192)).sup fun k => a (ix2 r k))
        - Ideal.log (∑ j : Fin 8192,
            Ideal.exp (a (ix2 r j) - (Finset.univ : Finset (Fin 8192)).sup fun k => a (ix2 r k)) * n (ix2 r j)) := by
  unfold rowReductions
  rw [subf_apply, subf_apply, divf_apply, log_apply]
  rw [shapeCast_a_a1_apply, shapeCast_a_a1_apply, shapeCast_a_a1_apply, shapeCast_a_a1_apply]
  rw [sum_rows, sum_rows, sum_rows, max_rows]
  simp only [mulf_apply, exp_apply, subf_apply, broadcastTo_a1_ab_apply, shapeCast_a_a1_apply]
  rw [max_rows]

end Cert.SupCon.Ker

end
-- ==== Proof.Payload.lean ====
/-
  The kernel's payload at an index. At grid point `t` the body loads rows `128 t … 128 t + 127` of the
  8192 x 256 matrix of views, the whole matrix, those rows' labels as a column and all the labels as a
  row, and stores 128 values. Value `r` is the loss, in the mean-first arrangement, of row `128 t + r`:

  * the matrix product of the block with the transposed matrix is the Gram entry, and the named
    constant it is multiplied by is the inverse temperature: the logits;
  * the two iotas, the row one offset by `128 t` as 32-bit words, compared for inequality: the
    not-self mask; the label column broadcast along the rows against the label row broadcast down the
    columns, compared for equality: the same-label mask;
  * the row reductions of these three arrays (the largest logit, the three sums) and the final
    arithmetic, times the coefficient.
-/
import proofs.«176974_j89670327206311_1_alg».proof.Proof.Spec
import proofs.«176974_j89670327206311_1_alg».proof.Proof.Gen.KernelIdeal.Skeleton
import proofs.«176974_j89670327206311_1_alg».proof.Proof.Gen.KernelIdeal.Launch
import proofs.«176974_j89670327206311_1_alg».proof.Proof.LibKeepdims
import proofs.«176974_j89670327206311_1_alg».proof.Proof.PayloadGram
import proofs.«176974_j89670327206311_1_alg».proof.Proof.PayloadTail
import Idealize.ShloMosaic.PureOps.IdealRules

noncomputable section

namespace Cert.SupCon.Ker

open Cert.KernelIdeal Cert.KernelIdeal.Gen Cert.SupCon Idealize.ShloMosaic Idealize.ShloMosaic.ValueIdx

/-- Row `r` of grid point `t`. -/
def rowOf (t : Fin 64) (r : Fin 128) : Fin 8192 :=
  ⟨128 * t.val + r.val, by have := t.isLt; have := r.isLt; omega⟩

/-! ## The logits -/

/-- The named constant is the inverse temperature. -/
theorem inv_temperature :
    Named.named (F := Ideal) κ "inv_temperature" (φ := .f32) 0x41200000#32 = invTemp :=
  IdealRules.named_const.ideal_named_scalar _ _ _ _ rfl

/-- The body's logits, as the kernel computes them from the two feature blocks. -/
def logitsK (x0 : FVec Ideal S128x256 .bf16) (x1 : FVec Ideal S8192x256 .bf16) : FVec Ideal S128x8192 .f32 :=
  have v1 : FVec Ideal S128x256 .bf16 := shapeCast S128x256 x0 shapeCasts_S128x256_S128x256
  have v3 : FVec Ideal S8192x256 .bf16 := shapeCast S8192x256 x1 shapeCasts_S8192x256_S8192x256
  have v4 : FVec Ideal S256x8192 .bf16 := transpose S256x8192 [1, 0] v3 transposes_S8192x256_p1_0_S256x8192
  have cst : FVec Ideal S128x8192 .f32 := constant S128x8192 .f32 0x00000000#32
  have v5 : FVec Ideal S128x8192 .f32 := matmul dot_S128x256_S256x8192_S128x8192_1_0_0_1_n_n none v1 v4 cst
  have cst_3 : Ideal .f32 := Named.named κ "inv_temperature" 0x41200000#32
  have v6 : FVec Ideal S128x8192 .f32 := broadcast S128x8192 cst_3
  have v7 : FVec Ideal S128x8192 .f32 := mulf v5 v6
  v7

theorem logitsK_apply (T : Fin 64) (x0 : FVec Ideal S128x256 .bf16) (x1 : FVec Ideal S8192x256 .bf16) (x : Feat)
    (h0 : ∀ (r : Fin 128) (k : Fin 256), x0 (ix2 r k) = row x (rowOf T r) k)
    (h1 : ∀ (j : Fin 8192) (k : Fin 256), x1 (ix2 j k) = row x j k) (r : Fin 128) (j : Fin 8192) :
    logitsK x0 x1 (ix2 r j) = logit x (rowOf T r) j := by
  unfold logitsK
  show matmul dotD none (shapeCast S128x256 x0 shapeCasts_S128x256_S128x256)
      (transpose S256x8192 [1, 0] (shapeCast S8192x256 x1 shapeCasts_S8192x256_S8192x256)
        transposes_S8192x256_p1_0_S256x8192) (constant S128x8192 .f32 0x00000000#32) (ix2 r j)
    * Named.named (F := Ideal) κ "inv_temperature" (φ := .f32) 0x41200000#32 = _
  rw [matmul_gram, inv_temperature]
  unfold logit gram
  simp only [h0, h1]

/-! ## The not-self mask -/

/-- The body's not-self mask at grid coordinates `i`. -/
def notSelfK (i : grid0.Coords) : FVec Ideal S128x8192 .f32 :=
  let arg0 : BitVec 32 := BitVec.ofNat 32 (i 0).val
  let v8 : BitVec 32 := Scalar.muli arg0 128#32
  have v9 : IVec S128x8192 32 := iota .tc S128x8192 32 [0] iota_S128x8192_d0_w32
  have v10 : IVec S128x8192 32 := broadcast S128x8192 v8
  have v11 : IVec S128x8192 32 := addi v10 v9
  have v12 : IVec S128x8192 32 := iota .tc S128x8192 32 [1] iota_S128x8192_d1_w32
  have v13 : IVec S128x8192 1 := cmpi .ne v11 v12
  have v14 : IVec S128x8192 32 := extui 32 v13 natLt_1_32
  have v15 : FVec Ideal S128x8192 .f32 := sitofp .f32 v14
  v15

theorem notSelfK_apply (i : grid0.Coords) (T : Fin 64) (hi : (i 0).val = T.val) (r : Fin 128) (j : Fin 8192) :
    notSelfK i (ix2 r j) = notSelf (rowOf T r) j := by
  unfold notSelfK
  show FloatOps.sitofp (F := Ideal) .f32 ((IntOp.cmpi .ne
      (IntOp.addi (Scalar.muli (BitVec.ofNat 32 (i 0).val) 128#32)
        (iota .tc S128x8192 32 [0] iota_S128x8192_d0_w32 (ix2 r j)))
      (iota .tc S128x8192 32 [1] iota_S128x8192_d1_w32 (ix2 r j))).setWidth 32) = _
  rw [iota_single_apply, iota_single_apply, mask_ne, hi]
  show (if IntOp.addi (Scalar.muli (BitVec.ofNat 32 T.val) 128#32) (BitVec.ofNat 32 r.val) = BitVec.ofNat 32 j.val
    then (0 : EReal) else 1) = _
  unfold notSelf
  refine if_congr ?_ rfl rfl
  rw [row_word_eq T.val r.val j.val T.isLt r.isLt j.isLt]
  exact ⟨fun h => Fin.ext h, fun h => congrArg Fin.val h⟩

/-! ## The same-label mask -/

/-- The body's same-label mask, from the label column and the label row. -/
def sameK (x2 : IVec S128x1 32) (x3 : IVec S1x8192 32) : FVec Ideal S128x8192 .f32 :=
  have v17 : IVec S128x1 32 := shapeCast S128x1 x2 shapeCasts_S128x1_S128x1
  have v19 : IVec S1x8192 32 := shapeCast S1x8192 x3 shapeCasts_S1x8192_S1x8192
  have v20 : IVec S128x8192 32 := broadcastTo S128x8192 v17 broadcasts_S128x1_S128x8192
  have v21 : IVec S128x8192 32 := broadcastTo S128x8192 v19 broadcasts_S1x8192_S128x8192
  have v22 : IVec S128x8192 1 := cmpi .eq v20 v21
  have v23 : IVec S128x8192 32 := extui 32 v22 natLt_1_32
  have v24 : FVec Ideal S128x8192 .f32 := sitofp .f32 v23
  v24

theorem sameK_apply (T : Fin 64) (x2 : IVec S128x1 32) (x3 : IVec S1x8192 32) (l : Lab)
    (h2 : ∀ r : Fin 128, x2 (ix2 r (0 : Fin 1)) = lab l (rowOf T r))
    (h3 : ∀ j : Fin 8192, x3 (ix2 (0 : Fin 1) j) = lab l j) (r : Fin 128) (j : Fin 8192) :
    sameK x2 x3 (ix2 r j) = same l (rowOf T r) j := by
  unfold sameK
  show FloatOps.sitofp (F := Ideal) .f32 ((IntOp.cmpi .eq
      (broadcastTo S128x8192 (shapeCast S128x1 x2 shapeCasts_S128x1_S128x1) broadcasts_S128x1_S128x8192 (ix2 r j))
      (broadcastTo S128x8192 (shapeCast S1x8192 x3 shapeCasts_S1x8192_S1x8192) broadcasts_S1x8192_S128x8192 (ix2 r j))).setWidth 32) = _
  rw [shapeCast_self, shapeCast_self, broadcastTo_a1_ab_apply, broadcastTo_1b_ab_apply, mask_eq, h2, h3]
  rfl

/-! ## The payload -/

/-- The body's arithmetic is the row reductions of the logits and the two masks. -/
theorem k0_pay2_eq (i : grid0.Coords) (x0 : Vec Ideal S128x256 .bf16) (x1 : Vec Ideal S8192x256 .bf16)
    (x2 : Vec Ideal S128x1 .i32) (x3 : Vec Ideal S1x8192 .i32) :
    k0_pay2 (F := Ideal) i x0 x1 x2 x3 = rowReductions (logitsK x0 x1) (notSelfK i) (sameK x2 x3) := rfl

/-- The grid has one axis: a point's coordinate is its number. -/
theorem coords_val : ∀ t : Fin grid0.N, ((grid0.coords t) 0).val = t.val := by decide +kernel

/-- The value the body stores at `(r, 0)` at grid point `t` is the loss of row `128 t + r`, the mean of
    the positives' logits taken first. -/
theorem payload_apply (t : Fin grid0.N) (x0 : Vec Ideal S128x256 .bf16) (x1 : Vec Ideal S8192x256 .bf16)
    (x2 : Vec Ideal S128x1 .i32) (x3 : Vec Ideal S1x8192 .i32) (x : Feat) (l : Lab)
    (h0 : ∀ (r : Fin 128) (k : Fin 256), x0 (ix2 r k) = row x (rowOf (Fin.cast N_0 t) r) k)
    (h1 : ∀ (j : Fin 8192) (k : Fin 256), x1 (ix2 j k) = row x j k)
    (h2 : ∀ r : Fin 128, x2 (ix2 r (0 : Fin 1)) = lab l (rowOf (Fin.cast N_0 t) r))
    (h3 : ∀ j : Fin 8192, x3 (ix2 (0 : Fin 1) j) = lab l j) (r : Fin 128) :
    k0_pay1 (F := Ideal) (k0_pay2 (F := Ideal) (grid0.coords t) x0 x1 x2 x3) (Scalar.ofBits .f32 0xBFB6DB6E#32)
        (ix2 r (0 : Fin 1))
      = rowLossMeanFirst x l (rowOf (Fin.cast N_0 t) r) := by
  have hi : ((grid0.coords t) 0).val = (Fin.cast N_0 t).val := coords_val t
  unfold k0_pay1
  show Ideal.ofBits .f32 0xBFB6DB6E#32 * k0_pay2 (F := Ideal) (grid0.coords t) x0 x1 x2 x3 (ix2 r (0 : Fin 1)) = _
  rw [k0_pay2_eq, rowReductions_apply]
  simp only [logitsK_apply (Fin.cast N_0 t) x0 x1 x h0 h1, notSelfK_apply (grid0.coords t) (Fin.cast N_0 t) hi,
    sameK_apply (Fin.cast N_0 t) x2 x3 l h2 h3]
  rfl

end Cert.SupCon.Ker

end
-- ==== Proof.HostIdeal.lean ====
/-
  The host operations in front of the kernel, read at an index for any contents of the buffers: the features re-laid
  as 8192 rows (the two views one after the other; the change of format is the identity on the extended reals), and
  the labels repeated for the two views, as a column and as a row. Row `j` is view `j / 4096` of sample `j % 4096`.
  No host operation writes the two arguments.
-/
import proofs.«176974_j89670327206311_1_alg».proof.Proof.Gen.KernelIdeal.Launch
import proofs.«176974_j89670327206311_1_alg».proof.Proof.Spec
import Idealize.ShloMosaic.Lib.StableHlo.Run
import Idealize.ShloMosaic.Lib.ValueIdx
import Idealize.ShloMosaic.Lib.Pipeline.Value

noncomputable section

namespace Cert.SupCon.Host

open Cert.KernelIdeal Cert.KernelIdeal.Gen Cert.SupCon Idealize.ShloMosaic Idealize.ShloMosaic.ValueIdx

/-! ## The layout operations on arbitrary arrays -/

/-- The features with the view axis moved to the front and the two leading axes merged: row `j`, feature `k` is
    feature `k` of view `j / 4096` of sample `j % 4096`. -/
theorem relaid_apply (x : S4096x2x256.Idx → EReal) (j : Fin 8192) (k : Fin 256) :
    shapeCast S8192x256 (transpose S2x4096x256 [1, 0, 2] x transposes_S4096x2x256_S2x4096x256_1_0_2)
        shapeCasts_S2x4096x256_S8192x256 (ix2 j k) = row x j k := by
  refine (shapeCast_apply _ shapeCasts_S2x4096x256_S8192x256 (ix2 j k) (ix3 (view j) (sample j) k) ?_).trans ?_
  · rewrite [Shape.rowMajor_val_three, Shape.rowMajor_val_two]
    have := j.isLt
    show (j.val / 4096 * 4096 + j.val % 4096) * 256 + k.val = j.val * 256 + k.val
    omega
  · exact transpose_apply [1, 0, 2] x transposes_S4096x2x256_S2x4096x256_1_0_2 (ix3 (view j) (sample j) k)
      (ix3 (sample j) (view j) k) (fun b => match b with
        | ⟨0, _⟩ => rfl
        | ⟨1, _⟩ => rfl
        | ⟨2, _⟩ => rfl)

/-- The labels as one row, repeated for the two views, and flattened to 8192 entries. -/
abbrev tiled (l : S4096x1.Idx → BitVec 32) : S8192.Idx → BitVec 32 :=
  shapeCast S8192 (broadcastInDim S2x4096 ![0, 1] bcast_S1x4096_S2x4096_0_1
    (shapeCast S1x4096 (shapeCast S4096 l shapeCasts_S4096x1_S4096) shapeCasts_S4096_S1x4096)) shapeCasts_S2x4096_S8192

/-- Entry `j` of the repeated labels is the label of sample `j % 4096`. -/
theorem tiled_apply (l : S4096x1.Idx → BitVec 32) (j : Fin 8192) : tiled l (ix1 j) = lab l j := by
  refine (shapeCast_apply _ shapeCasts_S2x4096_S8192 (ix1 j) (ix2 (view j) (sample j)) ?_).trans ?_
  · rewrite [Shape.rowMajor_val_two, Shape.rowMajor_val_one]
    have := j.isLt
    show j.val / 4096 * 4096 + j.val % 4096 = j.val
    omega
  refine (broadcastInDim_apply _ bcast_S1x4096_S2x4096_0_1 _ (ix2 (view j) (sample j)) (ix2 (0 : Fin 1) (sample j))
    (fun a => match a with
      | ⟨0, _⟩ => by show 0 = if (1 : Nat) = 1 then 0 else (view j).val; rw [if_pos rfl]
      | ⟨1, _⟩ => by show (sample j).val = if (4096 : Nat) = 1 then 0 else (sample j).val; rw [if_neg (by decide)])).trans ?_
  refine (shapeCast_apply _ shapeCasts_S4096_S1x4096 (ix2 (0 : Fin 1) (sample j)) (ix1 (sample j)) ?_).trans ?_
  · rewrite [Shape.rowMajor_val_one, Shape.rowMajor_val_two]
    show (sample j).val = 0 * 4096 + (sample j).val
    omega
  refine (shapeCast_apply _ shapeCasts_S4096x1_S4096 (ix1 (sample j)) (ix2 (sample j) (0 : Fin 1)) ?_).trans ?_
  · rewrite [Shape.rowMajor_val_two, Shape.rowMajor_val_one]
    show (sample j).val * 1 + 0 = (sample j).val
    omega
  rfl

/-- The 8192 entries as a column. -/
theorem col_apply (t : S8192.Idx → BitVec 32) (j : Fin 8192) :
    shapeCast S8192x1 t shapeCasts_S8192_S8192x1 (ix2 j (0 : Fin 1)) = t (ix1 j) :=
  shapeCast_apply t shapeCasts_S8192_S8192x1 (ix2 j (0 : Fin 1)) (ix1 j) (by
    rewrite [Shape.rowMajor_val_one, Shape.rowMajor_val_two]
    show j.val = j.val * 1 + 0
    omega)

/-- The 8192 entries as a row. -/
theorem row_apply (t : S8192.Idx → BitVec 32) (j : Fin 8192) :
    shapeCast S1x8192 t shapeCasts_S8192_S1x8192 (ix2 (0 : Fin 1) j) = t (ix1 j) :=
  shapeCast_apply t shapeCasts_S8192_S1x8192 (ix2 (0 : Fin 1) j) (ix1 j) (by
    rewrite [Shape.rowMajor_val_one, Shape.rowMajor_val_two]
    show j.val = 0 * 8192 + j.val
    omega)

/-! ## The buffers after the nine host operations, from any contents -/

variable (W : Valuation τ sig (Elt Ideal))

/-- The kernel's feature operand is the re-laid features. -/
theorem feat_term :
    (StableHlo.after (hostOps0 (F := Ideal)) W (Proc.devRef .tc main_v2) : S8192x256.Idx → EReal)
      = shapeCast S8192x256 (transpose S2x4096x256 [1, 0, 2] (W (Proc.devRef .tc main_arg0) : S4096x2x256.Idx → EReal)
          transposes_S4096x2x256_S2x4096x256_1_0_2) shapeCasts_S2x4096x256_S8192x256 := by
  after_results; rfl

/-- The kernel's label column is the repeated labels as a column. -/
theorem labCol_term :
    (StableHlo.after (hostOps0 (F := Ideal)) W (Proc.devRef .tc main_v7) : S8192x1.Idx → BitVec 32)
      = shapeCast S8192x1 (tiled (W (Proc.devRef .tc main_arg1) : S4096x1.Idx → BitVec 32)) shapeCasts_S8192_S8192x1 := by
  after_results; rfl

/-- The kernel's label row is the repeated labels as a row. -/
theorem labRow_term :
    (StableHlo.after (hostOps0 (F := Ideal)) W (Proc.devRef .tc main_v8) : S1x8192.Idx → BitVec 32)
      = shapeCast S1x8192 (tiled (W (Proc.devRef .tc main_arg1) : S4096x1.Idx → BitVec 32)) shapeCasts_S8192_S1x8192 := by
  after_results; rfl

/-- Row `j`, feature `k` of the kernel's feature operand is the specification's row. -/
theorem feat_apply (j : Fin 8192) (k : Fin 256) :
    (StableHlo.after (hostOps0 (F := Ideal)) W (Proc.devRef .tc main_v2) : S8192x256.Idx → EReal) (ix2 j k)
      = row (W (Proc.devRef .tc main_arg0)) j k :=
  (congrFun (feat_term W) (ix2 j k)).trans (relaid_apply _ j k)

/-- Entry `j` of the kernel's label column is the label of row `j`. -/
theorem labCol_apply (j : Fin 8192) :
    (StableHlo.after (hostOps0 (F := Ideal)) W (Proc.devRef .tc main_v7) : S8192x1.Idx → BitVec 32) (ix2 j (0 : Fin 1))
      = lab (W (Proc.devRef .tc main_arg1)) j :=
  (congrFun (labCol_term W) (ix2 j (0 : Fin 1))).trans ((col_apply _ j).trans (tiled_apply _ j))

/-- Entry `j` of the kernel's label row is the label of row `j`. -/
theorem labRow_apply (j : Fin 8192) :
    (StableHlo.after (hostOps0 (F := Ideal)) W (Proc.devRef .tc main_v8) : S1x8192.Idx → BitVec 32) (ix2 (0 : Fin 1) j)
      = lab (W (Proc.devRef .tc main_arg1)) j :=
  (congrFun (labRow_term W) (ix2 (0 : Fin 1) j)).trans ((row_apply _ j).trans (tiled_apply _ j))

/-- The nine host operations leave the two arguments as they were. -/
theorem args_kept0 :
    StableHlo.after (hostOps0 (F := Ideal)) W (Proc.devRef .tc main_arg0) = W (Proc.devRef .tc main_arg0)
      ∧ StableHlo.after (hostOps0 (F := Ideal)) W (Proc.devRef .tc main_arg1) = W (Proc.devRef .tc main_arg1) :=
  ⟨by after_results, by after_results⟩

end Cert.SupCon.Host

end
-- ==== Proof.HostIdealMean.lean ====
/-
  The host operations behind the kernel, read for any contents of the buffers: the sum of the 8192 rows' losses
  from zero, divided by the number of rows. No host operation writes the two arguments.
-/
import proofs.«176974_j89670327206311_1_alg».proof.Proof.Gen.KernelIdeal.Launch
import proofs.«176974_j89670327206311_1_alg».proof.Proof.Spec
import Idealize.ShloMosaic.Lib.StableHlo.Run
import Idealize.ShloMosaic.Lib.ValueIdx
import Idealize.ShloMosaic.Lib.IdealHost
import Idealize.ShloMosaic.PureOps.Ideal.Laws

noncomputable section

namespace Cert.SupCon.Host

open Cert.KernelIdeal Cert.KernelIdeal.Gen Cert.SupCon Idealize.ShloMosaic Idealize.ShloMosaic.ValueIdx

/-- The sum over both axes of a column of 8192 entries, from the zero word, divided by the word of 8192: the mean
    of the entries, the sum taken from zero. -/
theorem colMean_apply (v : S8192x1.Idx → EReal) (i : S_.Idx) :
    Idealize.ShloMosaic.Host.divf (F := Ideal)
        (Idealize.ShloMosaic.Host.reduceAdd (F := Ideal) (φ := .f32) v (constant (F := Ideal) S_ .f32 0x00000000#32)
          reducesTo_S8192x1_S_d0_1 h_S_)
        (constant (F := Ideal) S_ .f32 0x46000000#32) i
      = Ideal.div (0 + ∑ a : Fin 8192, v (ix2 a (0 : Fin 1))) rows := by
  rw [hostDivf_apply, hostReduceAdd_apply, constant_apply, constant_apply,
    Ideal.hostReduceAdd_total reducesTo_S8192x1_S_d0_1 (fun b => b.elim0), Ideal.ofBits_zero_f32, sum_idx2]
  refine congrArg (fun s => Ideal.div (0 + s) rows) (Finset.sum_congr rfl fun a _ => ?_)
  exact Fin.sum_univ_one _

variable (W : Valuation τ sig (Elt Ideal))

/-- The program's result is the column mean of the kernel's output. -/
theorem mean_term :
    (StableHlo.after (hostOps1 (F := Ideal)) W (Proc.devRef .tc main_v11) : S_.Idx → EReal)
      = Idealize.ShloMosaic.Host.divf (F := Ideal)
          (Idealize.ShloMosaic.Host.reduceAdd (F := Ideal) (φ := .f32) (W (Proc.devRef .tc main_v9) : S8192x1.Idx → EReal)
            (constant (F := Ideal) S_ .f32 0x00000000#32) reducesTo_S8192x1_S_d0_1 h_S_)
          (constant (F := Ideal) S_ .f32 0x46000000#32) := by
  after_results

/-- The kernel's output column, as the contents of its buffer. -/
abbrev outCol : S8192x1.Idx → EReal := W (Proc.devRef .tc main_v9)

/-- The program's result: the sum from zero of the kernel's 8192 outputs, divided by the number of rows. -/
theorem mean_apply :
    (StableHlo.after (hostOps1 (F := Ideal)) W (Proc.devRef .tc main_v11) : S_.Idx → EReal)
      = fun _ => Ideal.div (0 + ∑ i : Fin 8192, outCol W (ix2 i (0 : Fin 1))) rows :=
  funext fun i => (congrFun (mean_term W) i).trans (colMean_apply _ i)

/-- The same with the kernel's output column named. -/
theorem mean_apply_of_eq (v : S8192x1.Idx → EReal) (hv : outCol W = v) :
    (StableHlo.after (hostOps1 (F := Ideal)) W (Proc.devRef .tc main_v11) : S_.Idx → EReal)
      = fun _ => Ideal.div (0 + ∑ i : Fin 8192, v (ix2 i (0 : Fin 1))) rows := by
  subst hv; exact mean_apply W

/-- The four host operations leave the two arguments as they were. -/
theorem args_kept1 :
    StableHlo.after (hostOps1 (F := Ideal)) W (Proc.devRef .tc main_arg0) = W (Proc.devRef .tc main_arg0)
      ∧ StableHlo.after (hostOps1 (F := Ideal)) W (Proc.devRef .tc main_arg1) = W (Proc.devRef .tc main_arg1) :=
  ⟨by after_results, by after_results⟩

end Cert.SupCon.Host

end
-- ==== Proof.ValueIdeal.lean ====
/-
  The value of the idealized kernel program: its result is the loss, rows in the arrangement that takes the mean of the
  positives' logits first, of the two argument arrays as launched.

  Grid point `t` writes rows `128 t … 128 t + 127` of the 8192 × 1 output array, and these 64 blocks tile it. The value
  written at row `128 t + r` is the body's value at row `r` of the point's four blocks: the point's 128 feature rows, the
  whole feature matrix, the point's 128 labels, all the labels — each read off the arrays the host operations before the
  region made of the arguments, where the block's rectangle says. So the output array ends holding, at row `i`, the
  loss of row `i`; the host operations after the region sum the 8192 rows from zero and divide by the row count.
-/
import proofs.«176974_j89670327206311_1_alg».proof.Proof.FrameIdeal
import proofs.«176974_j89670327206311_1_alg».proof.Proof.Payload
import proofs.«176974_j89670327206311_1_alg».proof.Proof.HostIdeal
import proofs.«176974_j89670327206311_1_alg».proof.Proof.HostIdealMean
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Body Cert.SupCon
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The features as launched on core `c`, -/
abbrev xs (c : Dev nD) : Feat := m ((c : Thread nD τ).loc main_arg0)
/-- and the labels. -/
abbrev ls (c : Dev nD) : Lab := m ((c : Thread nD τ).loc main_arg1)

/-- What the output array ends holding: at row `i`, the loss of row `i`. -/
def rowsOut (c : Dev nD) : S8192x1.Idx → EReal := fun i => rowLossMeanFirst (xs m c) (ls m c) ⟨(i 0).val, idx2_lt0 i⟩

theorem hz : (![0, 0] : Fin 2 → Nat) = fun _ => 0 := funext fun a => by fin_cases a <;> rfl

/-- The printed index maps, decided over the grid: windows 0, 2 and 4 move down one block per point, windows 1 and 3
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of point `t`, as a row of the whole. -/
abbrev rowAt (t : Fin cfg0.N) (r : Fin 128) : Fin 8192 := ⟨128 * t.val + r.val, by have := t.isLt; have := r.isLt; have : cfg0.N = 64 := N_0; omega⟩

/-! ## The four input blocks, read where their rectangles say -/

theorem iblk0_apply (c : Dev nD) (t : Fin cfg0.N) (r : Fin 128) (k : Fin 256) :
    (iblk m ρ c 0 t : S128x256.Idx → EReal) (ix2 r k) = row (xs m c) (rowAt t r) k := by
  obtain ⟨e0, e1, -⟩ := idx_facts t
  show V m ρ c main_v2 (((cfg0.win 0).blk t).view.emb (ix2 r k)) = _
  have e : ((cfg0.win 0).blk t).view.emb (ix2 r k) = ix2 (rowAt t r) k := by
    funext a; apply Fin.ext
    match a with
    | ⟨0, _⟩ => show win0_0.index t (0 : Fin 2) * 128 + 1 * r.val = 128 * t.val + r.val; omega
    | ⟨1, _⟩ => show win0_0.index t (1 : Fin 2) * 256 + 1 * k.val = k.val; omega
  rw [e]
  exact Cert.SupCon.Host.feat_apply (V₀ m ρ c) (rowAt t r) k

theorem iblk1_apply (c : Dev nD) (t : Fin cfg0.N) (j : Fin 8192) (k : Fin 256) :
    (iblk m ρ c 1 t : S8192x256.Idx → EReal) (ix2 j k) = row (xs m c) j k := by
  obtain ⟨-, -, e0, e1, -⟩ := idx_facts t
  show V m ρ c main_v2 (((cfg0.win 1).blk t).view.emb (ix2 j k)) = _
  have e : ((cfg0.win 1).blk t).view.emb (ix2 j k) = ix2 j k := by
    funext a; apply Fin.ext
    match a with
    | ⟨0, _⟩ => show win0_1.index t (0 : Fin 2) * 8192 + 1 * j.val = j.val; omega
    | ⟨1, _⟩ => show win0_1.index t (1 : Fin 2) * 256 + 1 * k.val = k.val; omega
  rw [e]
  exact Cert.SupCon.Host.feat_apply (V₀ m ρ c) j k

theorem iblk2_apply (c : Dev nD) (t : Fin cfg0.N) (r : Fin 128) :
    (iblk m ρ c 2 t : S128x1.Idx → BitVec 32) (ix2 r (0 : Fin 1)) = lab (ls m c) (rowAt t r) := by
  obtain ⟨-, -, -, -, e0, e1, -⟩ := idx_facts t
  show V m ρ c main_v7 (((cfg0.win 2).blk t).view.emb (ix2 r (0 : Fin 1))) = _
  have e : ((cfg0.win 2).blk t).view.emb (ix2 r (0 : Fin 1)) = ix2 (rowAt t r) (0 : Fin 1) := by
    funext a; apply Fin.ext
    match a with
    | ⟨0, _⟩ => show win0_2.index t (0 : Fin 2) * 128 + 1 * r.val = 128 * t.val + r.val; omega
    | ⟨1, _⟩ => show win0_2.index t (1 : Fin 2) * 1 + 1 * 0 = 0; omega
  rw [e]
  exact Cert.SupCon.Host.labCol_apply (V₀ m ρ c) (rowAt t r)

theorem iblk3_apply (c : Dev nD) (t : Fin cfg0.N) (j : Fin 8192) :
    (iblk m ρ c 3 t : S1x8192.Idx → BitVec 32) (ix2 (0 : Fin 1) j) = lab (ls m c) j := by
  obtain ⟨-, -, -, -, -, -, e0, e1, -⟩ := idx_facts t
  show V m ρ c main_v8 (((cfg0.win 3).blk t).view.emb (ix2 (0 : Fin 1) j)) = _
  have e : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 8192 + 1 * j.val = j.val; omega
  rw [e]
  exact Cert.SupCon.Host.labRow_apply (V₀ m ρ c) j

/-! ## What a point writes back, the cover, and the array at the end -/

/-- Point `t` writes back block `t` of the rows' losses. -/
theorem flushed4_eq (c : Dev nD) (t : Fin cfg0.N) :
    (dats m ρ 0 c).flushed 4 t = ((cfg0.win 4).blk t).view.read (Elt Ideal) (rowsOut m c) := by
  obtain ⟨-, -, -, -, -, -, -, -, e0, e1⟩ := idx_facts t
  show (cfg0.win 4).cut (grid0.coords t) ((dats m ρ 0 c).after 4 t) = _
  rw [after0_4]
  unfold rowLosses
  rw [View.canon_unit_zero hz]
  simp only [View.ld_unit_zero (S := S128x256) hz, View.ld_unit_zero (S := S8192x256) hz, View.ld_unit_zero (S := S128x1) hz,
    View.ld_unit_zero (S := S1x8192) hz]
  funext j
  obtain ⟨r, q, rfl⟩ : ∃ (r : Fin 128) (q : Fin 1), j = ix2 r q := ⟨j 0, j 1, eq_ix2 j⟩
  obtain rfl : q = 0 := Subsingleton.elim _ _
  show k0_pay1 (F := Ideal) (k0_pay2 (F := Ideal) (grid0.coords t) (iblk m ρ c 0 t) (iblk m ρ c 1 t) (iblk m ρ c 2 t) (iblk m ρ c 3 t))
      (Scalar.ofBits .f32 0xBFB6DB6E#32) (ix2 r (0 : Fin 1)) = rowsOut m c (((cfg0.win 4).blk t).view.emb (ix2 r (0 : Fin 1)))
  rw [Cert.SupCon.Ker.payload_apply t _ _ _ _ (xs m c) (ls m c) (iblk0_apply m ρ c t) (iblk1_apply m ρ c t) (iblk2_apply m ρ c t)
    (iblk3_apply m ρ c t) r]
  unfold rowsOut
  congr 1
  apply Fin.ext
  show 128 * t.val + r.val = win0_4.index t (0 : Fin 2) * 128 + 1 * r.val
  omega

/-- An index of the output array is in point `t`'s block iff each coordinate is in the block's range on its axis. -/
theorem mem_blk4 (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v9).slice (win0_4.rect t)).set ↔ _
  rw [View.set_slice_whole, Rect.mem_set_unit]
  exact Iff.rfl

/-- Row `i` is written by point `i / 128`: the 64 blocks tile the array. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  have ht : (i 0).val / 128 < cfg0.N := by omega
  obtain ⟨-, -, -, -, -, -, -, -, e0, e1⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 2) * 1 ≤ (i 1).val ∧ (i 1).val < win0_4.index ⟨(i 0).val / 128, ht⟩ (1 : Fin 2) * 1 + 1
    rw [e1]; omega

/-- The output array after the run: the rows' losses. -/
theorem final4 (c : Dev nD) : (dats m ρ 0 c).arrAt 4 cfg0.N = rowsOut m c :=
  (dats m ρ 0 c).arrAt_eq_of_cover 4 (rowsOut m c) (fun t _ => flushed4_eq m ρ c t) cover4

/-! ## The result -/

/-- The result at the last valuation: the mean of the rows' losses. -/
theorem result_eq (c : Dev nD) :
    (W₂ m ρ c (Proc.devRef .tc main_v11) : S_.Idx → EReal) = fun _ => lossMeanFirst (xs m c) (ls m c) := by
  rw [show W₂ m ρ c = StableHlo.after hostOps1 (W₁ m ρ c) from rfl,
    Cert.SupCon.Host.mean_apply_of_eq (W₁ m ρ c) (rowsOut m c) ((W₁_out m ρ c).trans (final4 m ρ c))]
  rfl

/-- The run of the idealized kernel program: the result is the loss of the arguments as launched, which end unchanged. -/
theorem run : θ_run defs (onTc (τ := τ) (main (F := Ideal))) ⟨m, fun _ => 0, ρ⟩ (fun r => ∀ c : Dev nD,
      r.2.mem ((c.tc : Thread nD τ).loc main_v11) = (fun _ => lossMeanFirst (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_named m ρ)

end Cert.KernelIdeal.Val

end
-- ==== Proof.RefFeat.lean ====
/-
  The reference's first stages read at an index, against the specification: the features re-laid as 8192 rows
  (the two views one after the other), the Gram matrix of the rows, and the logits — the Gram entries divided by
  the temperature's single-precision value, which is the product with its reciprocal.
-/
import proofs.«176974_j89670327206311_1_alg».proof.Proof.Gen.ReferenceIdeal.Read
import proofs.«176974_j89670327206311_1_alg».proof.Proof.Spec
import Idealize.ShloMosaic.Lib.IdealHost

noncomputable section

namespace Cert.SupCon.Ref

open Cert.ReferenceIdeal Cert.ReferenceIdeal.Gen Cert.ReferenceIdeal.Read Idealize.ShloMosaic Idealize.ShloMosaic.ValueIdx

/-- The features as the reference's first argument. -/
abbrev X0 : Type := (⟨S4096x2x256, .f32⟩ : BufTy).Contents (Elt Ideal)
/-- The labels as the reference's second argument. -/
abbrev X1 : Type := (⟨S4096x1, .i32⟩ : BufTy).Contents (Elt Ideal)

/-- Row `i`, feature `k` of the re-laid features sits at sample `i % 4096`, view `i / 4096`. -/
theorem feat_idx (i : Fin 8192) (k : Fin 256) :
    idx_main_v5 (idx_main_v6 (ix2 i k)) = ix3 (sample i) (view i) k := by
  funext a
  refine Fin.ext ?_
  have hi := i.isLt
  have hk := k.isLt
  match a with
  | ⟨0, _⟩ => show (i.val * 256 + k.val) / 256 % 4096 = i.val % 4096; omega
  | ⟨1, _⟩ => show (i.val * 256 + k.val) / 1048576 = i.val / 4096; omega
  | ⟨2, _⟩ => show (i.val * 256 + k.val) % 256 = k.val; omega

/-- The re-laid features are the specification's rows. -/
theorem rows_eq (x0 : X0) (i : Fin 8192) (k : Fin 256) :
    val_main_v6 (F := Ideal) x0 (ix2 i k) = row x0 i k := by
  rw [val_main_v6_apply, val_main_v5_apply, feat_idx]
  rfl

theorem lidx_eq (i j : Fin 8192) (k : Fin 256) : lidx_main_v7 (ix2 i j) k = ix2 i k :=
  funext fun a => Fin.ext (by match a with | ⟨0, _⟩ => rfl | ⟨1, _⟩ => rfl)

theorem ridx_eq (i j : Fin 8192) (k : Fin 256) : ridx_main_v7 (ix2 i j) k = ix2 j k :=
  funext fun a => Fin.ext (by match a with | ⟨0, _⟩ => rfl | ⟨1, _⟩ => rfl)

/-- The reference's matrix product is the Gram matrix of the rows. -/
theorem gram_eq (x0 : X0) (i j : Fin 8192) :
    val_main_v7 (F := Ideal) x0 (ix2 i j) = gram x0 i j := by
  rw [val_main_v7_apply]
  unfold gram
  refine Finset.sum_congr rfl fun k _ => ?_
  rw [lidx_eq, ridx_eq, rows_eq, rows_eq]

/-- The single-precision word nearest one tenth is `13421773 / 2^27`. -/
theorem ofBits_tenth : Ideal.ofBits .f32 0x3DCCCCCD#32 = (((13421773 : ℝ) / 134217728 : ℝ) : EReal) := by
  simp [Ideal.ofBits, Ideal.ieee, -EReal.coe_mul]; norm_num

/-- Dividing by the temperature is multiplying by its reciprocal: the reference's logits are the specification's. -/
theorem logit_eq (x0 : X0) (i j : Fin 8192) :
    val_main_v9 (F := Ideal) x0 (ix2 i j) = logit x0 i j := by
  rw [val_main_v9_apply, val_main_v8_apply, val_main_cst_apply, gram_eq, Ideal.hostDivf_def, Ideal.ofBits_def,
    ofBits_tenth, Ideal.div_coe (by norm_num)]
  unfold logit invTemp
  norm_num

end Cert.SupCon.Ref

end
-- ==== Proof.RefMax.lean ====
/-
  The reference's row maximum read at an index: the fold of `max` from minus infinity over the 8192 logits of a
  row is the supremum of the row, and the logits less it are the specification's.
-/
import proofs.«176974_j89670327206311_1_alg».proof.Proof.RefFeat

noncomputable section

namespace Cert.SupCon.Ref

open Cert.ReferenceIdeal Cert.ReferenceIdeal.Gen Cert.ReferenceIdeal.Read Idealize.ShloMosaic Idealize.ShloMosaic.ValueIdx

/-- The reduction over the second axis, as the relation the library's lift is defined from. -/
theorem reduces_d1 : S8192x8192.Reduces [1] S8192 := by decide

/-- Row `i` with the column `k` inserted is the entry `(i, k)`. -/
theorem lift_eq (i k : Fin 8192) : reduces_d1.lift (ix1 i) k = ix2 i k :=
  funext fun a => Fin.ext (by match a with | ⟨0, _⟩ => rfl | ⟨1, _⟩ => rfl)

/-- The single-precision word `0xFF800000` is minus infinity, the bottom of the extended reals. -/
theorem ofBits_neg_inf : Ideal.ofBits .f32 0xFF800000#32 = (⊥ : EReal) := by
  simp [Ideal.ofBits, Ideal.ieee]

/-- The reference's row maximum is the supremum of the row's logits. -/
theorem rowMax_eq (x0 : X0) (i : Fin 8192) :
    val_main_v10 (F := Ideal) x0 (ix1 i) = rowMax x0 i := by
  unfold val_main_v10
  refine (Host.reduce_eq_fold_single FloatOps.maximumf _ _ reducesTo_S8192x8192_S8192_d1 reduces_d1 h_S_ (ix1 i)).trans ?_
  rw [val_main_cst_0_apply, Ideal.ofBits_def, ofBits_neg_inf]
  have e : (val_main_v9 (F := Ideal) x0 ∘ reduces_d1.lift (ix1 i)) = logit x0 i :=
    funext fun k => (congrArg (val_main_v9 (F := Ideal) x0) (lift_eq i k)).trans (logit_eq x0 i k)
  rw [e]
  rfl

end Cert.SupCon.Ref

end
-- ==== Proof.RefMask.lean ====
/-
  The reference's two masks read at an index. The label mask — "the two samples carry one label", tiled two by two
  over the views — is the specification's `same` of the two rows; one minus the identity matrix is `notSelf`; their
  product is `pos`.
-/
import proofs.«176974_j89670327206311_1_alg».proof.Proof.RefFeat

noncomputable section

namespace Cert.SupCon.Ref

open Cert.ReferenceIdeal Cert.ReferenceIdeal.Gen Cert.ReferenceIdeal.Read Idealize.ShloMosaic Idealize.ShloMosaic.ValueIdx

/-- An equality test of two words, read as a float, is one where they are equal and zero where not. -/
theorem uitofp_cmpi_eq {w : Nat} (a b : BitVec w) :
    FloatOps.uitofp (F := Ideal) .f32 (IntOp.cmpi .eq a b) = if a = b then (1 : EReal) else 0 := by
  show (((IntOp.cmpi .eq a b).toNat : ℝ) : EReal) = _
  by_cases h : a = b
  · subst h; simp [IntOp.cmpi]
  · simp [IntOp.cmpi, h]

/-- Entry `(i, j)` of the 8192 × 8192 mask is entry (view of i, sample of i, view of j, sample of j) of the tiling. -/
theorem tile_idx (i j : Fin 8192) :
    idx_main_v16 (ix2 i j) = ix4 (view i) (sample i) (view j) (sample j) := by
  funext a
  refine Fin.ext ?_
  have hi := i.isLt
  have hj := j.isLt
  match a with
  | ⟨0, _⟩ => show (i.val * 8192 + j.val) / 33554432 = i.val / 4096; omega
  | ⟨1, _⟩ => show (i.val * 8192 + j.val) / 8192 % 4096 = i.val % 4096; omega
  | ⟨2, _⟩ => show (i.val * 8192 + j.val) / 4096 % 2 = j.val / 4096; omega
  | ⟨3, _⟩ => show (i.val * 8192 + j.val) % 4096 = j.val % 4096; omega

/-- The tiling repeats the one 4096 × 4096 mask in each of the four view blocks. -/
theorem bcast_idx (u v : Fin 2) (a b : Fin 4096) :
    idx_main_v15 (ix4 u a v b) = ix4 (0 : Fin 1) a (0 : Fin 1) b :=
  funext fun c => Fin.ext (by match c with | ⟨0, _⟩ => rfl | ⟨1, _⟩ => rfl | ⟨2, _⟩ => rfl | ⟨3, _⟩ => rfl)

/-- The mask with two unit axes inserted is the mask. -/
theorem cast_idx (a b : Fin 4096) :
    idx_main_v14 (ix4 (0 : Fin 1) a (0 : Fin 1) b) = ix2 a b := by
  funext c
  refine Fin.ext ?_
  have ha := a.isLt
  have hb := b.isLt
  match c with
  | ⟨0, _⟩ => show (((0 * 4096 + a.val) * 1 + 0) * 4096 + b.val) / 4096 = a.val; omega
  | ⟨1, _⟩ => show (((0 * 4096 + a.val) * 1 + 0) * 4096 + b.val) % 4096 = b.val; omega

theorem lab_row_idx (a b : Fin 4096) : idx_main_v1 (ix2 a b) = ix2 a (0 : Fin 1) :=
  funext fun c => Fin.ext (by match c with | ⟨0, _⟩ => rfl | ⟨1, _⟩ => rfl)

theorem lab_col_idx (a b : Fin 4096) : idx_main_v0 (idx_main_v2 (ix2 a b)) = ix2 b (0 : Fin 1) :=
  funext fun c => Fin.ext (by match c with | ⟨0, _⟩ => rfl | ⟨1, _⟩ => rfl)

/-- The tiled label mask is `same`. -/
theorem same_eq (x1 : X1) (i j : Fin 8192) :
    val_main_v16 (F := Ideal) x1 (ix2 i j) = same x1 i j := by
  rw [val_main_v16_apply, tile_idx, val_main_v15_apply, bcast_idx, val_main_v14_apply, cast_idx, val_main_v4_apply,
    val_main_v3_apply, val_main_v1_apply, val_main_v2_apply, val_main_v0_apply, lab_row_idx, lab_col_idx, uitofp_cmpi_eq]
  rfl

/-- Two row numbers below 8192 are equal as 32-bit words exactly when they are equal. -/
theorem iota_eq_iff (i j : Fin 8192) :
    IntOp.addi (BitVec.ofNat 32 i.val) 0#32 = BitVec.ofNat 32 j.val ↔ i = j := by
  have hi := i.isLt
  have hj := j.isLt
  unfold IntOp.addi
  rw [BitVec.add_zero]
  constructor
  · intro h
    have h' := congrArg BitVec.toNat h
    rw [BitVec.toNat_ofNat, BitVec.toNat_ofNat] at h'
    exact Fin.ext (by omega)
  · rintro rfl; rfl

/-- One minus the identity matrix is `notSelf`. -/
theorem notSelf_eq (i j : Fin 8192) :
    val_main_v24 (F := Ideal) (ix2 i j) = notSelf i j := by
  rw [val_main_v24_apply, val_main_v23_apply, val_main_cst_1_apply, val_main_v22_apply, val_main_v21_apply,
    val_main_v20_apply, val_main_v17_apply, val_main_v18_apply, val_main_v19_apply, val_main_c_apply,
    uitofp_cmpi_eq, Ideal.ofBits_def, Ideal.ofBits_one_f32, Ideal.subf_def]
  show (1 : EReal) - (if IntOp.addi (BitVec.ofNat 32 i.val) 0#32 = BitVec.ofNat 32 j.val then (1 : EReal) else 0) = _
  unfold notSelf
  by_cases h : i = j
  · rw [if_pos ((iota_eq_iff i j).mpr h), if_pos h]
    rw [show (1 : EReal) = ((1 : ℝ) : EReal) from rfl, ← EReal.coe_sub, sub_self, EReal.coe_zero]
  · rw [if_neg (fun e => h ((iota_eq_iff i j).mp e)), if_neg h, sub_zero]

/-- The product of the two masks is `pos`. -/
theorem pos_eq (x1 : X1) (i j : Fin 8192) :
    val_main_v25 (F := Ideal) x1 (ix2 i j) = pos x1 i j := by
  rw [val_main_v25_apply, same_eq, notSelf_eq, Ideal.mulf_def]
  rfl

end Cert.SupCon.Ref

end
-- ==== Proof.RefValue.lean ====
/-
  The reference is the specification, in its second arrangement: each row's logits less the row maximum, the sum of
  their exponentials over the other rows, the log-probabilities, their mean over the positives of the row times the
  coefficient, and the mean of the rows' losses.
-/
import proofs.«176974_j89670327206311_1_alg».proof.Proof.RefMax
import proofs.«176974_j89670327206311_1_alg».proof.Proof.RefMask

noncomputable section

namespace Cert.SupCon.Ref

open Cert.ReferenceIdeal Cert.ReferenceIdeal.Gen Cert.ReferenceIdeal.Read Idealize.ShloMosaic Idealize.ShloMosaic.ValueIdx

/-- A row's maximum, kept as a column and repeated along the row, is read at the row. -/
theorem max_idx (i j : Fin 8192) : idx_main_v11 (idx_main_v12 (ix2 i j)) = ix1 i :=
  funext fun a => Fin.ext (by match a with | ⟨0, _⟩ => rfl)

/-- The same for the logarithm of a row's sum. -/
theorem log_idx (i j : Fin 8192) : idx_main_v29 (idx_main_v31 (ix2 i j)) = ix1 i :=
  funext fun a => Fin.ext (by match a with | ⟨0, _⟩ => rfl)

theorem sum28_idx (i k : Fin 8192) : idx_main_v28 (ix1 i) k = ix2 i k :=
  funext fun a => Fin.ext (by match a with | ⟨0, _⟩ => rfl | ⟨1, _⟩ => rfl)

theorem sum34_idx (i k : Fin 8192) : idx_main_v34 (ix1 i) k = ix2 i k :=
  funext fun a => Fin.ext (by match a with | ⟨0, _⟩ => rfl | ⟨1, _⟩ => rfl)

theorem sum35_idx (i k : Fin 8192) : idx_main_v35 (ix1 i) k = ix2 i k :=
  funext fun a => Fin.ext (by match a with | ⟨0, _⟩ => rfl | ⟨1, _⟩ => rfl)

/-- The logits less the row maximum. -/
theorem shifted_eq (x0 : X0) (i j : Fin 8192) :
    val_main_v13 (F := Ideal) x0 (ix2 i j) = logit x0 i j - rowMax x0 i := by
  rw [val_main_v13_apply, val_main_v12_apply, val_main_v11_apply, max_idx, rowMax_eq, logit_eq, Ideal.subf_def]

/-- The sum over the other rows of the exponentials. -/
theorem sumExp_eq (x0 : X0) (i : Fin 8192) :
    val_main_v28 (F := Ideal) x0 (ix1 i) = sumExp x0 i := by
  rw [val_main_v28_apply, val_main_cst_2_apply, Ideal.ofBits_def, Ideal.ofBits_zero_f32, zero_add]
  unfold sumExp
  refine Finset.sum_congr rfl fun k _ => ?_
  rw [sum28_idx, val_main_v27_apply, val_main_v26_apply, shifted_eq, notSelf_eq, Ideal.hostUnary_exp_def,
    Ideal.mulf_def]

/-- The log-probabilities. -/
theorem logProb_eq (x0 : X0) (i j : Fin 8192) :
    val_main_v32 (F := Ideal) x0 (ix2 i j) = (logit x0 i j - rowMax x0 i) - Ideal.log (sumExp x0 i) := by
  rw [val_main_v32_apply, val_main_v31_apply, val_main_v30_apply, val_main_v29_apply, log_idx, sumExp_eq, shifted_eq,
    Ideal.hostUnary_log_def, Ideal.subf_def]

/-- The sum over the positives of the log-probabilities. -/
theorem posSum_eq (x0 : X0) (x1 : X1) (i : Fin 8192) :
    val_main_v34 (F := Ideal) x0 x1 (ix1 i)
      = ∑ j : Fin 8192, pos x1 i j * ((logit x0 i j - rowMax x0 i) - Ideal.log (sumExp x0 i)) := by
  rw [val_main_v34_apply, val_main_cst_3_apply, Ideal.ofBits_def, Ideal.ofBits_zero_f32, zero_add]
  refine Finset.sum_congr rfl fun k _ => ?_
  rw [sum34_idx, val_main_v33_apply, pos_eq, logProb_eq, Ideal.mulf_def]

/-- The number of positives. -/
theorem count_eq (x1 : X1) (i : Fin 8192) :
    val_main_v35 (F := Ideal) x1 (ix1 i) = count x1 i := by
  rw [val_main_v35_apply, val_main_cst_4_apply, Ideal.ofBits_def, Ideal.ofBits_zero_f32, zero_add]
  unfold count
  refine Finset.sum_congr rfl fun k _ => ?_
  rw [sum35_idx, pos_eq]

/-- A row's loss. -/
theorem rowLoss_eq (x0 : X0) (x1 : X1) (i : Fin 8192) :
    val_main_v38 (F := Ideal) x0 x1 (ix1 i) = rowLossMeanLast x0 x1 i := by
  rw [val_main_v38_apply, val_main_v37_apply, val_main_cst_5_apply, val_main_v36_apply, posSum_eq, count_eq,
    Ideal.ofBits_def, Ideal.hostDivf_def, Ideal.mulf_def]
  rfl

/-- The 8192 indices of a one-axis array are the numbers below 8192. -/
def rowEquiv : Fin 8192 ≃ S8192.Idx where
  toFun a := ix1 a
  invFun j := j 0
  left_inv _ := rfl
  right_inv j := (eq_ix1 j).symm

/-- The reference's result is the specification's loss. -/
theorem ref_eq (x0 : X0) (x1 : X1) :
    val_main_v40 (F := Ideal) x0 x1 = fun _ => lossMeanLast x0 x1 := by
  funext i
  rw [val_main_v40_apply, val_main_v39_apply, val_main_cst_6_apply, val_main_cst_7_apply, Ideal.ofBits_def,
    Ideal.ofBits_def, Ideal.ofBits_zero_f32, Ideal.hostDivf_def, ← Equiv.sum_comp rowEquiv]
  unfold lossMeanLast
  refine congrArg (fun s => Ideal.div (0 + s) rows) (Finset.sum_congr rfl fun a _ => ?_)
  exact rowLoss_eq x0 x1 a

end Cert.SupCon.Ref

end
-- ==== Proof.Law.lean ====
/-
  The two arrangements of the supervised contrastive loss agree when every feature is a real number.

  With every feature real, every Gram entry and every logit is real; the largest logit of a row is one of
  its logits, hence real; the sum of the exponentials over the other rows is a sum of nonnegative reals of
  which one at least is positive (the row has another row beside it), so its logarithm is real. Row `i`
  always has a positive: the other view of its own sample, which is the row 4096 places further round the
  8192, carries the same label and is not `i`. So the number of positives is a nonzero real `n`, and a
  division by it is a product with `1 / n`. What is left is a law of the reals: for weights `p j` of total
  `n ≠ 0`, `(∑ p j * (a j - m - t)) / n = (∑ p j * a j) / n - m - t`.
-/
import proofs.«176974_j89670327206311_1_alg».proof.Proof.Spec
import Mathlib.Analysis.SpecialFunctions.Log.Basic

noncomputable section

namespace Cert.SupCon

open Idealize.ShloMosaic Idealize.ShloMosaic.ValueIdx

/-! ## The reals inside the extended reals -/

/-- The embedding of the reals goes through a finite sum. -/
theorem coe_sum {ι : Type*} (s : Finset ι) (f : ι → ℝ) :
    ((∑ j ∈ s, f j : ℝ) : EReal) = ∑ j ∈ s, (f j : EReal) := by
  classical
  refine Finset.induction_on s (by simp) ?_
  intro a s ha ih
  rw [Finset.sum_insert ha, Finset.sum_insert ha, EReal.coe_add, ih]

/-- Over the reals: the mean of `a j - m - t` under weights `p` of nonzero total `n` is the mean of
    `a j`, less `m` and `t`. -/
theorem mean_sub {ι : Type*} (s : Finset ι) (p a : ι → ℝ) (m t n : ℝ) (hn : n ≠ 0) (hp : ∑ j ∈ s, p j = n) :
    (∑ j ∈ s, p j * a j) * (1 / n) - m - t = (∑ j ∈ s, p j * (a j - m - t)) * (1 / n) := by
  have e : ∑ j ∈ s, p j * (a j - m - t) = ∑ j ∈ s, p j * a j - n * m - n * t := by
    simp only [mul_sub, Finset.sum_sub_distrib, ← Finset.sum_mul, hp]
  rw [e]
  field_simp

/-- The same law on the extended reals, every quantity a real number: the division by `n` is the
    product with `1 / n`. -/
theorem mean_sub_ereal {ι : Type*} (s : Finset ι) (p a : ι → ℝ) (m t n : ℝ) (hn : n ≠ 0)
    (hp : ∑ j ∈ s, p j = n) :
    (Ideal.div (∑ j ∈ s, (p j : EReal) * (a j : EReal)) (n : EReal) - (m : EReal)) - (t : EReal)
      = Ideal.div (∑ j ∈ s, (p j : EReal) * (((a j : EReal) - (m : EReal)) - (t : EReal))) (n : EReal) := by
  rw [Ideal.div_coe hn, Ideal.div_coe hn]
  simp only [← EReal.coe_mul, ← EReal.coe_sub, ← coe_sum]
  exact congrArg _ (mean_sub s p a m t n hn hp)

/-! ## The other view of a row's sample -/

/-- The row that shows the other view of row `i`'s sample. -/
def otherView (i : Fin 8192) : Fin 8192 := ⟨(i.val + 4096) % 8192, Nat.mod_lt _ (by norm_num)⟩

theorem otherView_ne (i : Fin 8192) : otherView i ≠ i := by
  intro h
  have := congrArg Fin.val h
  simp only [otherView] at this
  omega

theorem sample_otherView (i : Fin 8192) : sample (otherView i) = sample i := by
  apply Fin.ext
  simp only [sample, otherView]
  omega

theorem lab_otherView (l : Lab) (i : Fin 8192) : lab l (otherView i) = lab l i := by
  unfold lab
  rw [sample_otherView]

/-! ## The positives of a row, as real weights -/

/-- `1` when `j` is a positive of `i`, else `0`, as a real number. -/
def posR (l : Lab) (i j : Fin 8192) : ℝ := (if lab l i = lab l j then 1 else 0) * (if i = j then 0 else 1)

theorem pos_eq (l : Lab) (i j : Fin 8192) : pos l i j = (posR l i j : EReal) := by
  unfold pos same notSelf posR
  split_ifs <;> simp

theorem posR_nonneg (l : Lab) (i j : Fin 8192) : 0 ≤ posR l i j := by
  unfold posR
  split_ifs <;> norm_num

theorem count_eq (l : Lab) (i : Fin 8192) : count l i = ((∑ j, posR l i j : ℝ) : EReal) := by
  unfold count
  rw [coe_sum]
  exact Finset.sum_congr rfl fun j _ => pos_eq l i j

/-- Every row has a positive: the other view of its sample. -/
theorem count_pos (l : Lab) (i : Fin 8192) : 0 < ∑ j, posR l i j := by
  have h1 : posR l i (otherView i) = 1 := by
    unfold posR
    rw [if_pos (lab_otherView l i).symm, if_neg (otherView_ne i).symm]
    norm_num
  have h2 := Finset.single_le_sum (f := posR l i) (fun j _ => posR_nonneg l i j) (Finset.mem_univ (otherView i))
  linarith

/-! ## Every quantity of a row is a real number -/

section
variable (x : Feat) (hx : ∀ i, ∃ r : ℝ, x i = (r : EReal))
include hx

theorem logit_real (i j : Fin 8192) : ∃ r : ℝ, logit x i j = (r : EReal) := by
  choose xr hxr using hx
  refine ⟨(∑ k : Fin 256, xr (ix3 (sample i) (view i) k) * xr (ix3 (sample j) (view j) k))
    * (134217728 / 13421773), ?_⟩
  unfold logit gram row invTemp
  simp only [hxr, ← EReal.coe_mul, ← coe_sum]

/-- The largest logit of a row is one of its logits. -/
theorem rowMax_real (i : Fin 8192) : ∃ m : ℝ, rowMax x i = (m : EReal) := by
  obtain ⟨j, _, hj⟩ := Finset.exists_mem_eq_sup (Finset.univ : Finset (Fin 8192)) ⟨i, Finset.mem_univ i⟩ (logit x i)
  obtain ⟨r, hr⟩ := logit_real x hx i j
  exact ⟨r, by unfold rowMax; rw [hj, hr]⟩

/-- The sum of the exponentials over the other rows is a positive real, so its logarithm is real. -/
theorem log_sumExp_real (i : Fin 8192) : ∃ t : ℝ, Ideal.log (sumExp x i) = (t : EReal) := by
  obtain ⟨m, hm⟩ := rowMax_real x hx i
  choose L hL using logit_real x hx i
  have e : sumExp x i = ((∑ j, Real.exp (L j - m) * (if i = j then 0 else 1) : ℝ) : EReal) := by
    unfold sumExp notSelf
    rw [coe_sum]
    refine Finset.sum_congr rfl fun j _ => ?_
    rw [hL, hm, ← EReal.coe_sub, Ideal.exp_coe, EReal.coe_mul]
    split_ifs <;> simp
  have hpos : 0 < ∑ j, Real.exp (L j - m) * (if i = j then 0 else 1) := by
    refine lt_of_lt_of_le ?_ (Finset.single_le_sum
      (f := fun j => Real.exp (L j - m) * (if i = j then (0 : ℝ) else 1)) (fun j _ => ?_)
      (Finset.mem_univ (otherView i)))
    · rw [if_neg (otherView_ne i).symm, mul_one]
      exact Real.exp_pos _
    · split_ifs
      · simp
      · rw [mul_one]; exact (Real.exp_pos _).le
  exact ⟨Real.log _, by rw [e, Ideal.log_coe, if_neg (not_le.mpr hpos)]⟩

/-! ## The two arrangements -/

/-- Row by row the two arrangements agree. -/
theorem rowLoss_eq (l : Lab) (i : Fin 8192) : rowLossMeanFirst x l i = rowLossMeanLast x l i := by
  obtain ⟨m, hm⟩ := rowMax_real x hx i
  obtain ⟨t, ht⟩ := log_sumExp_real x hx i
  choose L hL using logit_real x hx i
  unfold rowLossMeanFirst rowLossMeanLast
  rw [hm, ht, count_eq]
  simp only [hL, pos_eq]
  rw [mean_sub_ereal Finset.univ (posR l i) L m t _ (count_pos l i).ne' rfl]

end

/-- The loss in the two arrangements is one extended real. -/
theorem lossMeanFirst_eq_lossMeanLast (x : Feat) (l : Lab) (hx : ∀ i, ∃ r : ℝ, x i = (r : EReal)) :
    lossMeanFirst x l = lossMeanLast x l := by
  unfold lossMeanFirst lossMeanLast
  rw [Finset.sum_congr rfl fun i _ => rowLoss_eq x hx l i]

end Cert.SupCon

end
-- ==== Proof.Finite.lean ====
/-
  From the printed precondition to "every feature is a real number".

  The precondition compares the absolute value of every feature with the single-precision word of
  plus infinity and takes the conjunction over all three axes. When the conjunction is 1, every
  comparison is 1, so `max (x i) (-(x i)) < ⊤` at every index. Of the three kinds of extended
  real only a real number satisfies that: at `⊥` the negation is `⊤`, and at `⊤` the entry itself is.
-/
import proofs.«176974_j89670327206311_1_alg».proof.Pre_finite_inputs
import proofs.«176974_j89670327206311_1_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

namespace Cert.SupCon

open Idealize.ShloMosaic Idealize.ShloMosaic.ValueIdx

/-- The shape of a scalar has one index. -/
instance : Subsingleton Cert.Pre_finite_inputs.S_.Idx := ⟨fun a b => funext fun d => d.elim0⟩

/-- The single-precision word `0x7F800000` is plus infinity. -/
theorem ofBits_posInf : Ideal.ofBits .f32 0x7F800000#32 = ⊤ := by simp [Ideal.ofBits, Ideal.ieee]

/-- An extended real whose absolute value is below plus infinity is a real number. -/
theorem real_of_abs_lt_top (a : EReal) (h : max a (-a) < ⊤) : ∃ r : ℝ, a = (r : EReal) := by
  induction a using EReal.rec with
  | bot => simp at h
  | top => simp at h
  | coe r => exact ⟨r, rfl⟩

/-- Under the printed precondition every feature is a real number. -/
theorem real_of_pre [Cert.Pre_finite_inputs.Facts] (x : FVec Ideal Cert.Pre_finite_inputs.S4096x2x256 .f32)
    (l : IVec Cert.Pre_finite_inputs.S4096x1 32)
    (h : Cert.Pre_finite_inputs.fn (F := Ideal) x l = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  rw [cmpf_apply, broadcastInDim_scalar_apply, constant_apply, ofBits_posInf] at hi
  refine real_of_abs_lt_top (x i) ?_
  change BitVec.ofBool (decide (max (x i) (-(x i)) < ⊤)) = 1#1 at hi
  by_contra hn
  rw [decide_eq_false hn] at hi
  exact absurd hi (by decide)

end Cert.SupCon
-- ==== Proof.Claims.lean ====
/-
  The claims that do not depend on how the kernel's value is computed. The reference runs and leaves its arguments
  as they were; the one named constant, the inverse temperature, is the value the table gives it; and, GIVEN that the
  kernel program ends with the loss in its first arrangement (the mean of the positives' logits taken first), the two
  programs end with equal results: the reference ends with the loss in its second arrangement, and under the
  precondition — every feature a real number — the two arrangements are one extended real.
-/
import proofs.«176974_j89670327206311_1_alg».proof.Defs
import proofs.«176974_j89670327206311_1_alg».proof.Proof.Gen.Kernel
import proofs.«176974_j89670327206311_1_alg».proof.Proof.Gen.KernelIdeal
import proofs.«176974_j89670327206311_1_alg».proof.Proof.Gen.ReferenceIdeal
import proofs.«176974_j89670327206311_1_alg».proof.Proof.Gen.Pre_finite_inputs
import proofs.«176974_j89670327206311_1_alg».proof.Proof.Gen.ReferenceIdeal.Run
import proofs.«176974_j89670327206311_1_alg».proof.Proof.Gen.ReferenceIdeal.Read
import proofs.«176974_j89670327206311_1_alg».proof.Proof.RefValue
import proofs.«176974_j89670327206311_1_alg».proof.Proof.Law
import proofs.«176974_j89670327206311_1_alg».proof.Proof.Finite

noncomputable section

namespace Cert.Proof.Claims

open Idealize.ShloMosaic Idealize.SL.Sem

/-- The reference terminates without a fault and leaves its two arguments as they were. -/
theorem frame_ri :
    Cert.frame_ReferenceIdeal (hReferenceIdeal := Cert.ReferenceIdeal.Gen.facts)
      (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The one named constant: the table gives the inverse temperature the reciprocal of the temperature's
    single-precision value, and the printed constant is that value on the extended reals. -/
theorem preserves : Cert.preserves_Kernel_KernelIdeal :=
  IdealRules.named_const.statement Cert.KernelIdeal.κ "inv_temperature" .f32 0x41200000#32
    ((134217728 / 13421773 : ℝ) : EReal) rfl

/-- If the kernel program ends with the loss in its first arrangement and its arguments as they were, the two
    programs, from memories that agree on the arguments, end with equal results: the reference's is the loss in its
    second arrangement, and the two arrangements agree when every feature is a real number, which the precondition
    says. -/
theorem algebraic_of
    (hker : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v11)
              = (fun _ => Cert.SupCon.lossMeanFirst
                  (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have key : ∀ c : Dev Cert.ReferenceIdeal.nD, Cert.ReferenceIdeal.Value.res_main_v40 m' c
      = fun _ => Cert.SupCon.lossMeanFirst
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    intro c
    rw [Cert.ReferenceIdeal.Read.val_main_v40_eq, Cert.SupCon.Ref.ref_eq, (hagree c).1, (hagree c).2,
      Cert.SupCon.lossMeanFirst_eq_lossMeanLast _ _ (Cert.SupCon.real_of_pre _ _ (hpre c))]
    rfl
  exact ⟨_, hker m ρ, (θ_run Cert.ReferenceIdeal.defs _ _).mono (fun _ h c => ⟨(h c).1.trans (key c), (h c).2⟩)
    (Cert.ReferenceIdeal.Value.run (F := Ideal) m' ρ')⟩

end Cert.Proof.Claims

end
-- ==== Proof.lean ====
/-
  The kernel and its reference compute one loss.

  Both programs take 4096 samples in two views, 256 features each, and one integer label per sample, lay the views one
  after the other as 8192 rows, and compute the supervised contrastive loss: for each row, a fixed coefficient times
  the mean, over the row's positives (the other rows whose sample carries the same label), of the log-probability of the
  positive under the softmax of the row's logits against all other rows; then the mean over the rows. A logit is the
  inner product of two rows over the temperature.

  The reference forms all 8192 × 8192 logits at once, dividing by the temperature; the kernel goes down the rows 128 at a
  time, one grid point per 128 rows, multiplying by the temperature's reciprocal — a constant which, read as the exact
  reciprocal of the temperature's single-precision value, makes the two logits one number. The reference subtracts the
  row's maximum and the logarithm of the row's sum of exponentials from every positive's logit and averages after; the
  kernel averages the positives' logits first and subtracts the two once. Every row has a positive — the same sample's
  other view — and on finite features every quantity is a real number, so the two arrangements agree: the mean of
  `a j - c` over a nonempty set is the mean of `a j` less `c`.

  The three frames: each program runs to its end, faults nowhere, and leaves its two argument arrays as launched. The
  kernel program's is proved from its run as a list of segments (host operations, the kernel region, host operations),
  at the word level and at the extended reals alike; the reference's is its run with the result dropped.
-/
import proofs.«176974_j89670327206311_1_alg».proof.Defs
import proofs.«176974_j89670327206311_1_alg».proof.Proof.Gen.Kernel
import proofs.«176974_j89670327206311_1_alg».proof.Proof.Gen.Kernel.Skeleton
import proofs.«176974_j89670327206311_1_alg».proof.Proof.Gen.Kernel.Launch
import proofs.«176974_j89670327206311_1_alg».proof.Proof.Gen.Kernel.Points
import proofs.«176974_j89670327206311_1_alg».proof.Proof.Gen.KernelIdeal
import proofs.«176974_j89670327206311_1_alg».proof.Proof.Gen.KernelIdeal.Skeleton
import proofs.«176974_j89670327206311_1_alg».proof.Proof.Gen.KernelIdeal.Launch
import proofs.«176974_j89670327206311_1_alg».proof.Proof.Gen.KernelIdeal.Points
import proofs.«176974_j89670327206311_1_alg».proof.Proof.Gen.ReferenceIdeal
import proofs.«176974_j89670327206311_1_alg».proof.Proof.Gen.Pre_finite_inputs
import proofs.«176974_j89670327206311_1_alg».proof.Proof.Gen.ReferenceIdeal.Run
import proofs.«176974_j89670327206311_1_alg».proof.Proof.Gen.ReferenceIdeal.Read
import proofs.«176974_j89670327206311_1_alg».proof.Proof.FrameBits
import proofs.«176974_j89670327206311_1_alg».proof.Proof.ValueIdeal
import proofs.«176974_j89670327206311_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Body.frame (F := Bits) m ρ,
  fun m ρ _ => Cert.KernelIdeal.Body.frame (F := Ideal) m ρ,
  Cert.Proof.Claims.frame_ri,
  Cert.Proof.Claims.preserves,
  Cert.Proof.Claims.algebraic_of (fun m ρ => Cert.KernelIdeal.Val.run m ρ)⟩

end Cert.Proof

end
